-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1600000 .f32) (main_arg2 : FVec F S64x64 .f32) (main_arg3 : FVec F S64 .f32) (main_arg4 : FVec F S64 .f32) (main_arg5 : FVec F S64 .f32) (main_arg6 : IVec S1600000 32) (main_arg7 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S50000x128 : Shape := ⟨2, ![50000, 128]⟩
abbrev S80x128 : Shape := ⟨2, ![80, 128]⟩
abbrev S5000x128 : Shape := ⟨2, ![5000, 128]⟩
abbrev S8x128 : Shape := ⟨2, ![8, 128]⟩
abbrev S7x128 : Shape := ⟨2, ![7, 128]⟩
abbrev S1x64 : Shape := ⟨2, ![1, 64]⟩

abbrev nBuf : Space → Nat
  | .hbm => 69
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x128, .f32⟩
  | .hbm, ⟨28, _⟩ => ⟨S64x128, .f32⟩
  | .hbm, ⟨29, _⟩ => ⟨S128x128, .f32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S80x128, .f32⟩
  | .hbm, ⟨40, _⟩ => ⟨S80x128, .f32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S_, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S_, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x128, .f32⟩
  | .hbm, ⟨66, _⟩ => ⟨S1x128, .f32⟩
  | .hbm, ⟨67, _⟩ => ⟨S50000x128, .f32⟩
  | .hbm, ⟨68, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S7x128_S8x128_d0 : Shape.Concatenates [S1x128, S7x128] S8x128 0
  inb_S8x128_S8x128_0_0 : ∀ a, (![0, 0] : Fin 2 → Nat) a + S8x128.size a ≤ S8x128.size a
  h_S8x128 : 0 < S8x128.numel
  reducesTo_S80x128_S128_d0 : S80x128.ReducesTo [0] S128
  h_S_ : 0 < S_.numel
  bcast_S128_S1x128_1 : S128.BroadcastsInDim S1x128 (![1] : Fin 1 → Fin S1x128.rank)
  slices_S1x128_S1x64_0_0 : S1x128.Slices ![0, 0] S1x64
  slices_S1x128_S1x64_0_64 : S1x128.Slices ![0, 64] S1x64
  bcast_S_S1x64 : S_.BroadcastsInDim S1x64 (![] : Fin 0 → Fin S1x64.rank)
  concatenates_S1x64_S1x64_S1x128_d1 : Shape.Concatenates [S1x64, S1x64] S1x128 1
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S80x128.size a
  hwx0_5 : ∀ i : grid0.Coords, EltTy.bits .f32 = 32 ∨ (Rect.block (s := S80x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S80x128.size a
  hwx0_6 : ∀ i : grid0.Coords, EltTy.bits .f32 = 32 ∨ (Rect.block (s := S80x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S64x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunValue.lean ====
/-
  The idealized kernel's run with its result named.

  @main is five segments: host operations, the first pipelined region, host operations, the second region, a last
  host reshape. Every weakly fair execution from a memory with zero counters terminates without a fault, and in its
  final state every buffer that outlives the regions holds what the fold of the segments over the launch memory
  gives it (W5: host stretches by their operations' results, a region's arrays by what its write-backs leave). Read at
  the program's result buffer this names the result; read at an argument it gives the launch contents back.
-/
import proofs.«167349_j88201448390851_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's contents, the eight argument arrays as launched. -/
theorem run_result : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.Spec.lean ====
/-
  The mathematics both programs compute, over abstract arrays of extended reals.

  A graph layer ends in a batch normalisation over the 100000 node rows of a [100000, 64] array h:
  per feature column d the mean  mu d = (sum_n h(n,d)) / 100000,  a variance v d, and the output
  max (((h(n,d) - mu d) * rsqrt (v d + eps)) * gamma d + beta d) 0.
  The variance is taken in two ways: as the mean of the squared deviations from the mean (varDev) and as the mean
  of the squares minus the squared mean (varMom); on real data they agree.

  The same data also appear PACKED two node rows to one 128-lane row: node n = 2p + e (e = 0, 1), feature d
  sits at packed row p, lane 64 e + d.  In packed form the linear layer multiplies by the block-diagonal
  matrix diag(A, A), column sums are first taken over tiles of 5000 packed rows (one partial row per tile, padded
  to 8 rows by zeros), and the normalisation is applied lane by lane with every per-feature vector repeated twice.
-/
import Idealize.ShloMosaic.PureOps.Ideal
import Idealize.ShloMosaic.Lib.ValueIdx

noncomputable section

namespace Cert.BnSpec

open Idealize.ShloMosaic Idealize.ShloMosaic.ValueIdx
open scoped BigOperators

/-! ## Shapes -/

abbrev Nodes : Shape := ⟨2, ![100000, 64]⟩
abbrev Feat : Shape := ⟨1, ![64]⟩
abbrev Weights : Shape := ⟨2, ![64, 64]⟩
abbrev Packed : Shape := ⟨2, ![50000, 128]⟩
abbrev Lanes : Shape := ⟨2, ![1, 128]⟩
abbrev Block : Shape := ⟨2, ![128, 128]⟩
abbrev Partials : Shape := ⟨2, ![80, 128]⟩

/-- Row and column of a node-array index, and of a packed index, as numbers of the literal ranges. -/
abbrev nrow (i : Nodes.Idx) : Fin 100000 := ⟨(i 0).val, (i 0).isLt⟩
abbrev ncol (i : Nodes.Idx) : Fin 64 := ⟨(i 1).val, (i 1).isLt⟩
abbrev prow (j : Packed.Idx) : Fin 50000 := ⟨(j 0).val, (j 0).isLt⟩
abbrev pcol (j : Packed.Idx) : Fin 128 := ⟨(j 1).val, (j 1).isLt⟩

/-! ## The two constants, as their f32 words -/

/-- The number of nodes, 100000.0. -/
abbrev count : EReal := Ideal.ofBits .f32 0x47C35000#32
/-- The variance offset, the f32 nearest 1e-5. -/
abbrev eps : EReal := Ideal.ofBits .f32 0x3727C5AC#32

/-! ## The layer on node rows -/

/-- The linear layer with bias and residual: h(n,d) = (sum_k s(n,k) * a(k,d) + b d) + x(n,d). -/
def lin (s x : Nodes.Idx → EReal) (a : Weights.Idx → EReal) (b : Feat.Idx → EReal) : Nodes.Idx → EReal :=
  fun i => ((∑ k : Fin 64, s (ix2 (nrow i) k) * a (ix2 k (ncol i))) + b (ix1 (ncol i))) + x i

def colSum (h : Nodes.Idx → EReal) (d : Fin 64) : EReal := ∑ n : Fin 100000, h (ix2 n d)

def colSumSq (h : Nodes.Idx → EReal) (d : Fin 64) : EReal := ∑ n : Fin 100000, h (ix2 n d) * h (ix2 n d)

def mean (h : Nodes.Idx → EReal) (d : Fin 64) : EReal := Ideal.div (colSum h d) count

/-- The variance as the mean of the squared deviations. -/
def varDev (h : Nodes.Idx → EReal) (d : Fin 64) : EReal :=
  Ideal.div (∑ n : Fin 100000, (h (ix2 n d) - mean h d) * (h (ix2 n d) - mean h d)) count

/-- The variance as the mean of the squares minus the squared mean. -/
def varMom (h : Nodes.Idx → EReal) (d : Fin 64) : EReal :=
  Ideal.div (colSumSq h d) count - mean h d * mean h d

/-- Normalise by a mean and a variance per feature, scale, shift, and clamp below at 0. -/
def normRelu (h : Nodes.Idx → EReal) (mu v : Fin 64 → EReal) (gamma beta : Feat.Idx → EReal) : Nodes.Idx → EReal :=
  fun i => max ((((h i - mu (ncol i)) * Ideal.rsqrt (v (ncol i) + eps)) * gamma (ix1 (ncol i))) + beta (ix1 (ncol i))) 0

/-! ## Packing two node rows into one 128-lane row -/

theorem pack_row_lt (j : Packed.Idx) : 2 * (j 0).val + (j 1).val / 64 < 100000 := by
  have h0 : (j 0).val < 50000 := (j 0).isLt
  have h1 : (j 1).val < 128 := (j 1).isLt
  omega

theorem unpack_row_lt (i : Nodes.Idx) : (i 0).val / 2 < 50000 := by
  have h0 : (i 0).val < 100000 := (i 0).isLt
  omega

theorem unpack_col_lt (i : Nodes.Idx) : (i 0).val % 2 * 64 + (i 1).val < 128 := by
  have h1 : (i 1).val < 64 := (i 1).isLt
  have := Nat.mod_lt (i 0).val (by decide : 0 < 2)
  omega

/-- The node index a packed index holds: row 2p + l / 64, column l % 64. -/
abbrev nodeOf (j : Packed.Idx) : Nodes.Idx :=
  ix2 (⟨2 * (j 0).val + (j 1).val / 64, pack_row_lt j⟩ : Fin 100000) (⟨(j 1).val % 64, Nat.mod_lt _ (by decide)⟩ : Fin 64)

/-- The packed index that holds a node index: row n / 2, lane 64 (n % 2) + d. -/
abbrev packedOf (i : Nodes.Idx) : Packed.Idx :=
  ix2 (⟨(i 0).val / 2, unpack_row_lt i⟩ : Fin 50000) (⟨(i 0).val % 2 * 64 + (i 1).val, unpack_col_lt i⟩ : Fin 128)

/-- A node array in packed form. -/
def pack (h : Nodes.Idx → EReal) : Packed.Idx → EReal := fun j => h (nodeOf j)

/-- A packed array read back by node. -/
def unpack (f : Packed.Idx → EReal) : Nodes.Idx → EReal := fun i => f (packedOf i)

/-- A per-feature vector repeated on both halves of the 128 lanes, as a [1,128] row. -/
def lanes2 (v : Fin 64 → EReal) : Lanes.Idx → EReal := fun l => v ⟨(l 1).val % 64, Nat.mod_lt _ (by decide)⟩

/-- diag(A, A): entry (j, l) is A(j % 64, l % 64) when j and l lie in the same half, else 0. -/
def blockDiag (a : Weights.Idx → EReal) : Block.Idx → EReal := fun q =>
  if (q 0).val / 64 = (q 1).val / 64 then
    a (ix2 (⟨(q 0).val % 64, Nat.mod_lt _ (by decide)⟩ : Fin 64) (⟨(q 1).val % 64, Nat.mod_lt _ (by decide)⟩ : Fin 64))
  else 0

/-! ## The layer on packed rows -/

/-- The packed linear layer with bias and residual. -/
def linP (s x : Packed.Idx → EReal) (w : Block.Idx → EReal) (b : Lanes.Idx → EReal) : Packed.Idx → EReal :=
  fun j => ((∑ k : Fin 128, s (ix2 (prow j) k) * w (ix2 k (pcol j))) + b (ix2 (0 : Fin 1) (pcol j))) + x j

theorem tile_row_lt (q : Partials.Idx) (r : Fin 5000) : 5000 * ((q 0).val / 8) + r.val < 50000 := by
  have h0 : (q 0).val < 80 := (q 0).isLt
  have hr := r.isLt
  omega

/-- The per-tile column sums: tile t of 5000 packed rows puts its column sums on row 8 t; rows 8 t + 1 .. 8 t + 7 are 0. -/
def tileSums (f : Packed.Idx → EReal) : Partials.Idx → EReal := fun q =>
  if (q 0).val % 8 = 0 then
    ∑ r : Fin 5000, f (ix2 (⟨5000 * ((q 0).val / 8) + r.val, tile_row_lt q r⟩ : Fin 50000) (⟨(q 1).val, (q 1).isLt⟩ : Fin 128))
  else 0

/-- The packed normalisation: every per-lane row vector is read at row 0. -/
def normP (h : Packed.Idx → EReal) (mu iv g b : Lanes.Idx → EReal) : Packed.Idx → EReal := fun j =>
  max ((((h j - mu (ix2 (0 : Fin 1) (pcol j))) * iv (ix2 (0 : Fin 1) (pcol j))) * g (ix2 (0 : Fin 1) (pcol j)))
    + b (ix2 (0 : Fin 1) (pcol j))) 0

end Cert.BnSpec

end
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.PackAlgebra.lean ====
/-
  The algebra of the packed form: packing two node rows into one 128-lane row commutes with the linear layer
  (against the block-diagonal matrix), with the column sums (through the per-tile partial sums) and with the
  normalisation; packing and unpacking are mutually inverse. Everything is a regrouping of finite sums in the
  commutative monoid of the extended reals, with x * 0 = 0 for every x; no finiteness is involved.
-/
import proofs.«167349_j88201448390851_2_alg».proof.Proof.Spec
import proofs.«167349_j88201448390851_2_alg».proof.Proof.LibBlocks
import Mathlib.Algebra.BigOperators.Fin
import Mathlib.Tactic

noncomputable section

namespace Cert.PackAlgebra

open Cert.BnSpec Cert.LibBlocks Idealize.ShloMosaic Idealize.ShloMosaic.ValueIdx
open scoped BigOperators

/-- Two rank-2 indices with equal coordinates (as numbers) are equal. -/
theorem ix2_ext {n0 n1 : Nat} {a a' : Fin n0} {b b' : Fin n1} (ha : a.val = a'.val) (hb : b.val = b'.val) :
    ix2 a b = ix2 a' b' := by
  have h1 : a = a' := Fin.ext ha
  have h2 : b = b' := Fin.ext hb
  subst h1; subst h2; rfl

/-! ## Packing and unpacking are mutually inverse -/

theorem nodeOf_packedOf (i : Nodes.Idx) : nodeOf (packedOf i) = i := by
  have h0 : (i 0).val < 100000 := (i 0).isLt
  have h1 : (i 1).val < 64 := (i 1).isLt
  rw [eq_ix2 i]
  apply ix2_ext
  · show 2 * ((i 0).val / 2) + ((i 0).val % 2 * 64 + (i 1).val) / 64 = (i 0).val
    omega
  · show ((i 0).val % 2 * 64 + (i 1).val) % 64 = (i 1).val
    omega

theorem packedOf_nodeOf (j : Packed.Idx) : packedOf (nodeOf j) = j := by
  have h0 : (j 0).val < 50000 := (j 0).isLt
  have h1 : (j 1).val < 128 := (j 1).isLt
  rw [eq_ix2 j]
  apply ix2_ext
  · show (2 * (j 0).val + (j 1).val / 64) / 2 = (j 0).val
    omega
  · show (2 * (j 0).val + (j 1).val / 64) % 2 * 64 + (j 1).val % 64 = (j 1).val
    omega

theorem unpack_pack (h : Nodes.Idx → EReal) : unpack (pack h) = h := by
  funext i
  show h (nodeOf (packedOf i)) = h i
  rw [nodeOf_packedOf]

theorem pack_unpack (f : Packed.Idx → EReal) : pack (unpack f) = f := by
  funext j
  show f (packedOf (nodeOf j)) = f j
  rw [packedOf_nodeOf]

/-! ## The normalisation commutes with packing -/

theorem normP_pack (h : Nodes.Idx → EReal) (mu iv : Fin 64 → EReal) (gamma beta : Feat.Idx → EReal) :
    normP (pack h) (lanes2 mu) (lanes2 iv) (lanes2 fun d => gamma (ix1 d)) (lanes2 fun d => beta (ix1 d))
      = pack (fun i => max ((((h i - mu (ncol i)) * iv (ncol i)) * gamma (ix1 (ncol i))) + beta (ix1 (ncol i))) 0) := by
  funext j
  rfl

/-! ## Column sums through the packed form -/

theorem two_blocks : 50000 * 2 = 100000 := by norm_num

/-- Lane d of packed row p is node 2p, feature d. -/
theorem pack_lo (h : Nodes.Idx → EReal) (p : Fin 50000) (d : Fin 64) (hd : d.val < 128) :
    pack h (ix2 p (⟨d.val, hd⟩ : Fin 128)) = h (ix2 (blockRow two_blocks p (0 : Fin 2)) d) := by
  have hp := p.isLt
  have hdd := d.isLt
  show h (nodeOf (ix2 p (⟨d.val, hd⟩ : Fin 128))) = _
  congr 1
  apply ix2_ext
  · show 2 * p.val + d.val / 64 = p.val * 2 + 0
    omega
  · show d.val % 64 = d.val
    omega

/-- Lane 64 + d of packed row p is node 2p + 1, feature d. -/
theorem pack_hi (h : Nodes.Idx → EReal) (p : Fin 50000) (d : Fin 64) (hd : 64 + d.val < 128) :
    pack h (ix2 p (⟨64 + d.val, hd⟩ : Fin 128)) = h (ix2 (blockRow two_blocks p (1 : Fin 2)) d) := by
  have hp := p.isLt
  have hdd := d.isLt
  show h (nodeOf (ix2 p (⟨64 + d.val, hd⟩ : Fin 128))) = _
  congr 1
  apply ix2_ext
  · show 2 * p.val + (64 + d.val) / 64 = p.val * 2 + 1
    omega
  · show (64 + d.val) % 64 = d.val
    omega

/-- A sum over the 100000 nodes is the sum over the 50000 pairs of the two members of each pair, for any
    summand g of the node value. -/
theorem sum_pack_halves_gen (g : EReal → EReal) (h : Nodes.Idx → EReal) (d : Fin 64) :
    (∑ p : Fin 50000, g (pack h (ix2 p (⟨d.val, by omega⟩ : Fin 128))))
      + (∑ p : Fin 50000, g (pack h (ix2 p (⟨64 + d.val, by omega⟩ : Fin 128))))
      = ∑ n : Fin 100000, g (h (ix2 n d)) := by
  rw [← sum_blocks two_blocks (fun n : Fin 100000 => g (h (ix2 n d))), ← Finset.sum_add_distrib]
  refine Finset.sum_congr rfl fun p _ => ?_
  rw [Fin.sum_univ_two, pack_lo, pack_hi]

theorem sum_pack_halves (h : Nodes.Idx → EReal) (d : Fin 64) :
    (∑ p : Fin 50000, pack h (ix2 p (⟨d.val, by omega⟩ : Fin 128)))
      + (∑ p : Fin 50000, pack h (ix2 p (⟨64 + d.val, by omega⟩ : Fin 128))) = colSum h d :=
  sum_pack_halves_gen (fun v => v) h d

theorem sum_pack_halves_sq (h : Nodes.Idx → EReal) (d : Fin 64) :
    (∑ p : Fin 50000, pack h (ix2 p (⟨d.val, by omega⟩ : Fin 128)) * pack h (ix2 p (⟨d.val, by omega⟩ : Fin 128)))
      + (∑ p : Fin 50000, pack h (ix2 p (⟨64 + d.val, by omega⟩ : Fin 128)) * pack h (ix2 p (⟨64 + d.val, by omega⟩ : Fin 128)))
      = colSumSq h d :=
  sum_pack_halves_gen (fun v => v * v) h d

/-! ## The per-tile partial sums add up to the column sums -/

theorem tiles_rows : 10 * 8 = 80 := by norm_num
theorem tiles_packed : 10 * 5000 = 50000 := by norm_num

/-- Row r of tile t of the partial sums: the tile's column sum when r = 0, else 0. -/
theorem tileSums_block (f : Packed.Idx → EReal) (t : Fin 10) (r : Fin 8) (l : Fin 128) :
    tileSums f (ix2 (blockRow tiles_rows t r) l)
      = if r.val = 0 then ∑ r' : Fin 5000, f (ix2 (blockRow tiles_packed t r') l) else 0 := by
  have ht := t.isLt
  have hr := r.isLt
  show (if (t.val * 8 + r.val) % 8 = 0 then
      ∑ r' : Fin 5000, f (ix2 (⟨5000 * ((t.val * 8 + r.val) / 8) + r'.val, _⟩ : Fin 50000) (⟨l.val, _⟩ : Fin 128))
    else 0) = _
  by_cases h0 : r.val = 0
  · rw [if_pos (by omega), if_pos h0]
    refine Finset.sum_congr rfl fun r' _ => ?_
    congr 1
    apply ix2_ext
    · show 5000 * ((t.val * 8 + r.val) / 8) + r'.val = t.val * 5000 + r'.val
      omega
    · rfl
  · rw [if_neg (by omega), if_neg h0]

theorem sum_tileSums (f : Packed.Idx → EReal) (l : Fin 128) :
    (∑ q : Fin 80, tileSums f (ix2 q l)) = ∑ p : Fin 50000, f (ix2 p l) := by
  rw [← sum_blocks tiles_rows (fun q : Fin 80 => tileSums f (ix2 q l)),
    ← sum_blocks tiles_packed (fun p : Fin 50000 => f (ix2 p l))]
  refine Finset.sum_congr rfl fun t _ => ?_
  simp only [tileSums_block]
  rw [Finset.sum_eq_single (0 : Fin 8)]
  · rfl
  · intro r _ hr
    rw [if_neg]
    intro h
    exact hr (Fin.ext h)
  · intro h
    exact absurd (Finset.mem_univ _) h

/-! ## The linear layer commutes with packing -/

theorem halves : 2 * 64 = 128 := by norm_num

/-- The contraction against diag(A, A) restricted to half e of the 128 lanes: the 64-term product against A when
    e is the half of the output lane, and a sum of products with 0 otherwise. -/
theorem half_sum (s : Nodes.Idx → EReal) (a : Weights.Idx → EReal) (p : Fin 50000) (l : Fin 128) (e : Fin 2) :
    (∑ k' : Fin 64, pack s (ix2 p (blockRow halves e k')) * blockDiag a (ix2 (blockRow halves e k') l))
      = if e.val = l.val / 64 then
          ∑ k' : Fin 64, s (ix2 (⟨2 * p.val + l.val / 64, by omega⟩ : Fin 100000) k')
            * a (ix2 k' (⟨l.val % 64, by omega⟩ : Fin 64))
        else 0 := by
  have hp := p.isLt
  have hl := l.isLt
  have he2 := e.isLt
  by_cases he : e.val = l.val / 64
  · rw [if_pos he]
    refine Finset.sum_congr rfl fun k' _ => ?_
    have hk := k'.isLt
    have h1 : pack s (ix2 p (blockRow halves e k'))
        = s (ix2 (⟨2 * p.val + l.val / 64, by omega⟩ : Fin 100000) k') := by
      show s (nodeOf (ix2 p (blockRow halves e k'))) = _
      congr 1
      apply ix2_ext
      · show 2 * p.val + (e.val * 64 + k'.val) / 64 = 2 * p.val + l.val / 64
        omega
      · show (e.val * 64 + k'.val) % 64 = k'.val
        omega
    have h2 : blockDiag a (ix2 (blockRow halves e k') l) = a (ix2 k' (⟨l.val % 64, by omega⟩ : Fin 64)) := by
      show (if (e.val * 64 + k'.val) / 64 = l.val / 64 then
          a (ix2 (⟨(e.val * 64 + k'.val) % 64, _⟩ : Fin 64) (⟨l.val % 64, _⟩ : Fin 64)) else 0) = _
      rw [if_pos (by omega)]
      congr 1
      apply ix2_ext
      · show (e.val * 64 + k'.val) % 64 = k'.val
        omega
      · rfl
    rw [h1, h2]
  · rw [if_neg he]
    refine Finset.sum_eq_zero fun k' _ => ?_
    have hk := k'.isLt
    have h2 : blockDiag a (ix2 (blockRow halves e k') l) = 0 := by
      show (if (e.val * 64 + k'.val) / 64 = l.val / 64 then
          a (ix2 (⟨(e.val * 64 + k'.val) % 64, _⟩ : Fin 64) (⟨l.val % 64, _⟩ : Fin 64)) else 0) = _
      rw [if_neg (by omega)]
    rw [h2, mul_zero]

/-- The 128-term contraction of a packed row against diag(A, A) is the 64-term contraction of the node row it holds
    against A. -/
theorem dot_pack (s : Nodes.Idx → EReal) (a : Weights.Idx → EReal) (p : Fin 50000) (l : Fin 128) :
    (∑ k : Fin 128, pack s (ix2 p k) * blockDiag a (ix2 k l))
      = ∑ k' : Fin 64, s (ix2 (⟨2 * p.val + l.val / 64, by omega⟩ : Fin 100000) k')
          * a (ix2 k' (⟨l.val % 64, by omega⟩ : Fin 64)) := by
  have hl := l.isLt
  rw [← sum_blocks halves (fun k : Fin 128 => pack s (ix2 p k) * blockDiag a (ix2 k l)), Fin.sum_univ_two,
    half_sum, half_sum]
  have hcases : l.val / 64 = 0 ∨ l.val / 64 = 1 := by omega
  rcases hcases with h0 | h1
  · rw [if_pos (show (0 : Fin 2).val = l.val / 64 from h0.symm),
      if_neg (show ¬ (1 : Fin 2).val = l.val / 64 by rw [h0]; decide), add_zero]
  · rw [if_neg (show ¬ (0 : Fin 2).val = l.val / 64 by rw [h1]; decide),
      if_pos (show (1 : Fin 2).val = l.val / 64 from h1.symm), zero_add]

theorem linP_pack (s x : Nodes.Idx → EReal) (a : Weights.Idx → EReal) (b : Feat.Idx → EReal) :
    linP (pack s) (pack x) (blockDiag a) (lanes2 fun d => b (ix1 d)) = pack (lin s x a b) := by
  funext j
  show ((∑ k : Fin 128, pack s (ix2 (prow j) k) * blockDiag a (ix2 k (pcol j)))
      + lanes2 (fun d => b (ix1 d)) (ix2 (0 : Fin 1) (pcol j))) + pack x j = _
  rw [dot_pack]
  rfl

end Cert.PackAlgebra

end
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.Layout.lean ====
/-
  The layout operations that move between the node form and the packed form, read at an entry.

  A reshape keeps the row-major position: node (n, d) of a [100000, 64] array sits at 64 n + d, which is position
  128 p + l of the [50000, 128] array for (p, l) = (n / 2, 64 (n % 2) + d); so reshaping to the packed shape is
  packing and reshaping back is unpacking. The matrix [[T, 0], [0, T]] built by joining columns and then rows is the
  block-diagonal matrix diag(T, T), and a 64-vector joined with itself and laid out as a [1, 128] row is the vector
  repeated on both halves of the lanes.
-/
import proofs.«167349_j88201448390851_2_alg».proof.Proof.Spec
import proofs.«167349_j88201448390851_2_alg».proof.Proof.LibConcatPair
import Idealize.ShloMosaic.Lib.Pipeline.Value
import Idealize.ShloMosaic.Lib.ValueIdx
import Idealize.ShloMosaic.Lib.ValueLayout

noncomputable section

namespace Cert.Layout

open Cert.BnSpec Cert.LibConcatPair Idealize.ShloMosaic Idealize.ShloMosaic.ValueIdx

/-- Two rank-2 indices with equal coordinates (as numbers) are equal. -/
private theorem idx2_ext {n0 n1 : Nat} {a a' : Fin n0} {b b' : Fin n1} (ha : a.val = a'.val) (hb : b.val = b'.val) :
    ix2 a b = ix2 a' b' := by
  have h1 : a = a' := Fin.ext ha
  have h2 : b = b' := Fin.ext hb
  subst h1; subst h2; rfl

/-! ## Reshapes between the node shape and the packed shape -/

theorem shapeCast_pack (h : Nodes.Idx → EReal) (hc : Nodes.ShapeCasts Packed) : shapeCast Packed h hc = pack h := by
  funext j
  have h0 : (j 0).val < 50000 := (j 0).isLt
  have h1 : (j 1).val < 128 := (j 1).isLt
  exact shapeCast_apply h hc j (nodeOf j) (by
    rw [Shape.rowMajor_val_two, Shape.rowMajor_val_two]
    show (2 * (j 0).val + (j 1).val / 64) * 64 + (j 1).val % 64 = (j 0).val * 128 + (j 1).val
    omega)

theorem shapeCast_unpack (f : Packed.Idx → EReal) (hc : Packed.ShapeCasts Nodes) : shapeCast Nodes f hc = unpack f := by
  funext i
  have h0 : (i 0).val < 100000 := (i 0).isLt
  have h1 : (i 1).val < 64 := (i 1).isLt
  exact shapeCast_apply f hc i (packedOf i) (by
    rw [Shape.rowMajor_val_two, Shape.rowMajor_val_two]
    show (i 0).val / 2 * 128 + ((i 0).val % 2 * 64 + (i 1).val) = (i 0).val * 64 + (i 1).val
    omega)

/-! ## A vector joined with itself, as a [1, 128] row -/

theorem lanes_concat (v : Feat.Idx → EReal) (h0 : Shape.Concatenates [Feat, Feat] (⟨1, ![128]⟩ : Shape) 0)
    (hc : (⟨1, ![128]⟩ : Shape).ShapeCasts Lanes) :
    shapeCast Lanes (concatenate (⟨1, ![128]⟩ : Shape) 0 [⟨Feat, v⟩, ⟨Feat, v⟩] h0) hc = lanes2 (fun d => v (ix1 d)) := by
  funext l
  obtain ⟨u, q, rfl⟩ : ∃ u q, l = ix2 u q := ⟨l 0, l 1, eq_ix2 l⟩
  have hq : q.val < 128 := q.isLt
  rw [shapeCast_a_1a_apply]
  show _ = v (ix1 (⟨q.val % 64, _⟩ : Fin 64))
  by_cases hlt : q.val < 64
  · rw [vec_left v v h0 (⟨q.val, hlt⟩ : Fin 64) q rfl]
    congr 2
    apply Fin.ext
    show q.val = q.val % 64
    omega
  · rw [vec_right v v h0 (⟨q.val - 64, by omega⟩ : Fin 64) q (by show q.val = 64 + (q.val - 64); omega)]
    congr 2
    apply Fin.ext
    show q.val - 64 = q.val % 64
    omega

/-! ## Two matrices stacked one above the other, read at an entry -/

/-- A row of the upper matrix. -/
theorem rows_top {α : Type} {a b c n : ℕ} (x : (⟨2, ![a, n]⟩ : Shape).Idx → α) (y : (⟨2, ![b, n]⟩ : Shape).Idx → α)
    (hc : Shape.Concatenates [(⟨2, ![a, n]⟩ : Shape), ⟨2, ![b, n]⟩] ⟨2, ![c, n]⟩ 0)
    (j : Fin a) (q : Fin c) (k : Fin n) (hq : q.val = j.val) :
    concatenate ⟨2, ![c, n]⟩ 0 [⟨⟨2, ![a, n]⟩, x⟩, ⟨⟨2, ![b, n]⟩, y⟩] hc (ix2 q k) = x (ix2 j k) :=
  concatenate_pair_apply_left 0 x y hc (ix2 q k) rfl (ix2 j k) (fun d => by
    match d with
    | ⟨0, _⟩ => exact hq.symm
    | ⟨1, _⟩ => rfl)

/-- A row of the lower matrix: row a + j of the pair is row j of the second. -/
theorem rows_bottom {α : Type} {a b c n : ℕ} (x : (⟨2, ![a, n]⟩ : Shape).Idx → α) (y : (⟨2, ![b, n]⟩ : Shape).Idx → α)
    (hc : Shape.Concatenates [(⟨2, ![a, n]⟩ : Shape), ⟨2, ![b, n]⟩] ⟨2, ![c, n]⟩ 0)
    (j : Fin b) (q : Fin c) (k : Fin n) (hq : q.val = a + j.val) :
    concatenate ⟨2, ![c, n]⟩ 0 [⟨⟨2, ![a, n]⟩, x⟩, ⟨⟨2, ![b, n]⟩, y⟩] hc (ix2 q k) = y (ix2 j k) :=
  concatenate_pair_apply_right 0 x y hc (ix2 q k) rfl rfl (ix2 j k) (fun d hd => by
    match d, hd with
    | ⟨0, _⟩, hd => exact (hd (Fin.ext rfl)).elim
    | ⟨1, _⟩, _ => rfl) (by show j.val + a = q.val; omega)

/-! ## The block-diagonal matrix as a join of four blocks -/

theorem blockDiag_concat (T Z : Weights.Idx → EReal) (hZ : ∀ i, Z i = 0)
    (h1 : Shape.Concatenates [Weights, Weights] (⟨2, ![64, 128]⟩ : Shape) 1)
    (h0 : Shape.Concatenates [(⟨2, ![64, 128]⟩ : Shape), (⟨2, ![64, 128]⟩ : Shape)] Block 0) :
    concatenate Block 0
      [⟨(⟨2, ![64, 128]⟩ : Shape), concatenate (⟨2, ![64, 128]⟩ : Shape) 1 [⟨Weights, T⟩, ⟨Weights, Z⟩] h1⟩,
       ⟨(⟨2, ![64, 128]⟩ : Shape), concatenate (⟨2, ![64, 128]⟩ : Shape) 1 [⟨Weights, Z⟩, ⟨Weights, T⟩] h1⟩] h0
      = blockDiag T := by
  funext q
  obtain ⟨r, c, rfl⟩ : ∃ r c, q = ix2 r c := ⟨q 0, q 1, eq_ix2 q⟩
  have hr : r.val < 128 := r.isLt
  have hcc : c.val < 128 := c.isLt
  show _ = (if r.val / 64 = c.val / 64 then
      T (ix2 (⟨r.val % 64, _⟩ : Fin 64) (⟨c.val % 64, _⟩ : Fin 64)) else 0)
  by_cases hrl : r.val < 64
  · rw [rows_top _ _ h0 (⟨r.val, hrl⟩ : Fin 64) r c rfl]
    by_cases hcl : c.val < 64
    · rw [cols_left T Z h1 (⟨r.val, hrl⟩ : Fin 64) (⟨c.val, hcl⟩ : Fin 64) c rfl, if_pos (by omega)]
      congr 1
      apply idx2_ext
      · show r.val = r.val % 64
        omega
      · show c.val = c.val % 64
        omega
    · rw [cols_right T Z h1 (⟨r.val, hrl⟩ : Fin 64) (⟨c.val - 64, by omega⟩ : Fin 64) c
        (by show c.val = 64 + (c.val - 64); omega), if_neg (by omega), hZ]
  · rw [rows_bottom _ _ h0 (⟨r.val - 64, by omega⟩ : Fin 64) r c (by show r.val = 64 + (r.val - 64); omega)]
    by_cases hcl : c.val < 64
    · rw [cols_left Z T h1 (⟨r.val - 64, by omega⟩ : Fin 64) (⟨c.val, hcl⟩ : Fin 64) c rfl, if_neg (by omega), hZ]
    · rw [cols_right Z T h1 (⟨r.val - 64, by omega⟩ : Fin 64) (⟨c.val - 64, by omega⟩ : Fin 64) c
        (by show c.val = 64 + (c.val - 64); omega), if_pos (by omega)]
      congr 1
      apply idx2_ext
      · show r.val - 64 = r.val % 64
        omega
      · show c.val - 64 = c.val % 64
        omega

end Cert.Layout

end
-- ==== Proof.StatsDefs.lean ====
/-
  The host stretch between the two regions, as named terms.

  From the two [80,128] arrays of per-tile partial sums (of h and of h*h) the host takes column sums over the 80 rows,
  adds lane d and lane 64 + d (the two nodes packed in one row), divides by the node count to get the mean and the
  mean of squares, forms  mean of squares - mean * mean + eps,  takes the reciprocal square root, and repeats each
  [1,64] row twice along the lanes.
-/
import proofs.«167349_j88201448390851_2_alg».proof.KernelIdeal
import Idealize.ShloMosaic.PureOps.Ideal

noncomputable section

namespace Cert.Stats

open Cert.KernelIdeal Idealize.ShloMosaic

variable [Cert.KernelIdeal.Facts]
open Cert.KernelIdeal.Facts₀ Cert.KernelIdeal.Facts

/-- Column sums over the 80 partial rows, as a [1,128] row. -/
def sumRow (P : FVec Ideal S80x128 .f32) : FVec Ideal S1x128 .f32 :=
  broadcastInDim S1x128 ![1] bcast_S128_S1x128_1
    (Host.reduceAdd P (constant (F := Ideal) S_ .f32 0x00000000#32) reducesTo_S80x128_S128_d0 h_S_)

/-- Lanes d and 64 + d added: the sum over both nodes of a packed row. -/
def foldHalves (P : FVec Ideal S80x128 .f32) : FVec Ideal S1x64 .f32 :=
  addf (extractStridedSlice S1x64 ![0, 0] (sumRow P) slices_S1x128_S1x64_0_0)
    (extractStridedSlice S1x64 ![0, 64] (sumRow P) slices_S1x128_S1x64_0_64)

/-- The node count, broadcast to a [1,64] row. -/
def countRow : FVec Ideal S1x64 .f32 :=
  broadcastInDim S1x64 ![] bcast_S_S1x64 (constant (F := Ideal) S_ .f32 0x47C35000#32)

/-- The per-feature mean. -/
def meanRow (P1 : FVec Ideal S80x128 .f32) : FVec Ideal S1x64 .f32 := Host.divf (foldHalves P1) countRow

/-- The per-feature reciprocal standard deviation: rsqrt (mean of squares - mean * mean + eps). -/
def invRow (P1 P2 : FVec Ideal S80x128 .f32) : FVec Ideal S1x64 .f32 :=
  Host.rsqrt (addf (subf (Host.divf (foldHalves P2) countRow) (mulf (meanRow P1) (meanRow P1)))
    (broadcastInDim S1x64 ![] bcast_S_S1x64 (constant (F := Ideal) S_ .f32 0x3727C5AC#32)))

/-- A [1,64] row repeated on both halves of the 128 lanes. -/
def twice (M : FVec Ideal S1x64 .f32) : FVec Ideal S1x128 .f32 :=
  concatenate S1x128 1 [⟨S1x64, M⟩, ⟨S1x64, M⟩] concatenates_S1x64_S1x64_S1x128_d1

end Cert.Stats

end
-- ==== Proof.Stats.lean ====
/-
  The host stretch between the two regions, read at an entry.

  The column sums of an [80,128] array of partial sums, taken from zero, are the sums over its 80 rows; adding lane d
  and lane 64 + d gives, per feature, the sum over both nodes packed in a row; the mean divides that by the node
  count; the reciprocal standard deviation is the reciprocal square root of the mean of squares minus the squared
  mean plus the offset; and a [1,64] row laid twice side by side is the row read at the lane modulo 64.
-/
import proofs.«167349_j88201448390851_2_alg».proof.Proof.StatsDefs
import proofs.«167349_j88201448390851_2_alg».proof.Proof.Spec
import proofs.«167349_j88201448390851_2_alg».proof.Proof.LibConcatPair
import Idealize.ShloMosaic.Lib.Pipeline.Value
import Idealize.ShloMosaic.Lib.ValueIdx
import Idealize.ShloMosaic.Lib.ValueLayout
import Idealize.ShloMosaic.PureOps.Ideal.Laws

noncomputable section

namespace Cert.StatsRead

variable [Cert.KernelIdeal.Facts]
open Cert.KernelIdeal Cert.Stats Cert.BnSpec Idealize.ShloMosaic Idealize.ShloMosaic.ValueIdx
open Cert.KernelIdeal.Facts₀ Cert.KernelIdeal.Facts
open scoped BigOperators

/-- The column sums from zero: the sum over the 80 partial rows. -/
theorem sumRow_apply (P : FVec Ideal S80x128 .f32) (l : Fin 128) :
    sumRow P (ix2 (0 : Fin 1) l) = ∑ q : Fin 80, P (ix2 q l) := by
  unfold sumRow
  rw [broadcastInDim_apply ![1] bcast_S128_S1x128_1 _ (ix2 (0 : Fin 1) l) (ix1 l) (fun a => match a with
    | ⟨0, _⟩ => by show l.val = if (128 : Nat) = 1 then 0 else l.val; rw [if_neg (by decide)])]
  simp only [Host.reduceAdd, Ideal.hostReduceAdd_def]
  rw [Ideal.hostReduceAdd_single reducesTo_S80x128_S128_d0 (by decide)]
  show Ideal.ofBits .f32 0x00000000#32 + _ = _
  rw [Ideal.ofBits_zero_f32, zero_add]
  refine Finset.sum_congr rfl fun k _ => ?_
  exact congrArg P (funext fun a => Fin.ext (by match a with | ⟨0, _⟩ => rfl | ⟨1, _⟩ => rfl))

/-- Lanes d and 64 + d added: the sum over the 80 partial rows of both. -/
theorem foldHalves_apply (P : FVec Ideal S80x128 .f32) (d : Fin 64) :
    foldHalves P (ix2 (0 : Fin 1) d)
      = (∑ q : Fin 80, P (ix2 q (⟨d.val, by omega⟩ : Fin 128))) + (∑ q : Fin 80, P (ix2 q (⟨64 + d.val, by omega⟩ : Fin 128))) := by
  unfold foldHalves
  show extractStridedSlice S1x64 ![0, 0] (sumRow P) slices_S1x128_S1x64_0_0 (ix2 (0 : Fin 1) d)
      + extractStridedSlice S1x64 ![0, 64] (sumRow P) slices_S1x128_S1x64_0_64 (ix2 (0 : Fin 1) d) = _
  rw [slice2_axis1_apply 0 (sumRow P) slices_S1x128_S1x64_0_0 (0 : Fin 1) d (⟨d.val, by omega⟩ : Fin 128) (Nat.zero_add _).symm,
    slice2_axis1_apply 64 (sumRow P) slices_S1x128_S1x64_0_64 (0 : Fin 1) d (⟨64 + d.val, by omega⟩ : Fin 128) rfl,
    sumRow_apply, sumRow_apply]

/-- The mean: the folded sum divided by the node count. -/
theorem meanRow_apply (P1 : FVec Ideal S80x128 .f32) (d : Fin 64) :
    meanRow P1 (ix2 (0 : Fin 1) d) = Ideal.div (foldHalves P1 (ix2 (0 : Fin 1) d)) BnSpec.count := rfl

/-- The reciprocal standard deviation: rsqrt of the mean of squares minus the squared mean plus the offset. -/
theorem invRow_apply (P1 P2 : FVec Ideal S80x128 .f32) (d : Fin 64) :
    invRow P1 P2 (ix2 (0 : Fin 1) d)
      = Ideal.rsqrt ((Ideal.div (foldHalves P2 (ix2 (0 : Fin 1) d)) BnSpec.count
          - meanRow P1 (ix2 (0 : Fin 1) d) * meanRow P1 (ix2 (0 : Fin 1) d)) + BnSpec.eps) := rfl

/-- A [1,64] row laid twice side by side is the row read at the lane modulo 64. -/
theorem twice_eq (M : FVec Ideal S1x64 .f32) : twice M = BnSpec.lanes2 (fun d => M (ix2 (0 : Fin 1) d)) := by
  funext l
  obtain ⟨p, q, rfl⟩ : ∃ p q, l = ix2 p q := ⟨l 0, l 1, eq_ix2 l⟩
  have hp : p = (0 : Fin 1) := Subsingleton.elim _ _
  subst hp
  have hq := q.isLt
  unfold twice
  by_cases h : q.val < 64
  · rw [Cert.LibConcatPair.cols_left (n := 1) (a := 64) (b := 64) (c := 128) M M concatenates_S1x64_S1x64_S1x128_d1
      (0 : Fin 1) (⟨q.val, h⟩ : Fin 64) q rfl]
    show M (ix2 (0 : Fin 1) (⟨q.val, h⟩ : Fin 64)) = M (ix2 (0 : Fin 1) (⟨q.val % 64, _⟩ : Fin 64))
    exact congrArg (fun d : Fin 64 => M (ix2 (0 : Fin 1) d)) (Fin.ext (Nat.mod_eq_of_lt h).symm)
  · rw [Cert.LibConcatPair.cols_right (n := 1) (a := 64) (b := 64) (c := 128) M M concatenates_S1x64_S1x64_S1x128_d1
      (0 : Fin 1) (⟨q.val - 64, by omega⟩ : Fin 64) q (by show q.val = 64 + (q.val - 64); omega)]
    show M (ix2 (0 : Fin 1) (⟨q.val - 64, _⟩ : Fin 64)) = M (ix2 (0 : Fin 1) (⟨q.val % 64, _⟩ : Fin 64))
    exact congrArg (fun d : Fin 64 => M (ix2 (0 : Fin 1) d)) (Fin.ext (by show q.val - 64 = q.val % 64; omega))

end Cert.StatsRead

end
-- ==== Proof.HostStretch.lean ====
/-
  The three host stretches of the idealized kernel, read at the buffers the regions and the result take.

  Before the first region: the sparse product (the same gather / multiply / scatter-add the reference makes), reshaped
  to packed rows; the input reshaped to packed rows; the transposed weight placed twice on the diagonal of a [128,128]
  block; bias, scale and shift each joined with itself into a [1,128] row.
  Between the regions: the partial sums folded into the mean row and the reciprocal-standard-deviation row, each
  repeated on both lane halves; the first region's main result and the scale / shift rows are left as they were.
  After the second region: the packed result reshaped back to node rows.
-/
import proofs.«167349_j88201448390851_2_alg».proof.Proof.Gen.KernelIdeal.Frame
import proofs.«167349_j88201448390851_2_alg».proof.Proof.Gen.ReferenceIdeal.Read
import proofs.«167349_j88201448390851_2_alg».proof.Proof.StatsDefs
import Idealize.ShloMosaic.Lib.StableHlo.Run

set_option maxRecDepth 16384

noncomputable section

namespace Cert.HostStretch

open Cert.KernelIdeal Cert.KernelIdeal.Gen Cert.Stats
open Idealize.ShloMosaic Idealize.ShloMosaic.TcCoe Idealize.SL.Sem Idealize.ShloMosaic.StableHlo

variable (W : Valuation τ sig (Elt Ideal))

/-! ## After the second region -/

theorem post_v49 : StableHlo.after (hostOps2 (F := Ideal)) W (Proc.devRef .tc main_v49)
    = shapeCast S100000x64 (W (Proc.devRef .tc main_v48)) shapeCasts_S50000x128_S100000x64 := by
  after_results
  rfl

/-! ## Between the regions -/

theorem mid_v46 : StableHlo.after (hostOps1 (F := Ideal)) W (Proc.devRef .tc main_v46)
    = twice (meanRow (W (Proc.devRef .tc main_v26_1))) := by
  after_results_simp
  rfl

theorem mid_v47 : StableHlo.after (hostOps1 (F := Ideal)) W (Proc.devRef .tc main_v47)
    = twice (invRow (W (Proc.devRef .tc main_v26_1)) (W (Proc.devRef .tc main_v26_2))) := by
  after_results_simp
  rfl

theorem mid_v26_0 : StableHlo.after (hostOps1 (F := Ideal)) W (Proc.devRef .tc main_v26_0) = W (Proc.devRef .tc main_v26_0) := by
  after_results_simp

theorem mid_v21 : StableHlo.after (hostOps1 (F := Ideal)) W (Proc.devRef .tc main_v21) = W (Proc.devRef .tc main_v21) := by
  after_results_simp

theorem mid_v23 : StableHlo.after (hostOps1 (F := Ideal)) W (Proc.devRef .tc main_v23) = W (Proc.devRef .tc main_v23) := by
  after_results_simp

/-! ## Before the first region -/

theorem pre_v25 : StableHlo.after (hostOps0 (F := Ideal)) W (Proc.devRef .tc main_v25)
    = shapeCast S50000x128 (W (Proc.devRef .tc main_arg0)) shapeCasts_S100000x64_S50000x128 := by
  after_results_simp
  rfl

theorem pre_v24 : StableHlo.after (hostOps0 (F := Ideal)) W (Proc.devRef .tc main_v24)
    = shapeCast S50000x128 (Cert.ReferenceIdeal.Read.val_main_v12 (F := Ideal) (W (Proc.devRef .tc main_arg0)) (W (Proc.devRef .tc main_arg1))
        (W (Proc.devRef .tc main_arg6)) (W (Proc.devRef .tc main_arg7))) shapeCasts_S100000x64_S50000x128 := by
  after_results_simp
  rfl

theorem pre_v17 : StableHlo.after (hostOps0 (F := Ideal)) W (Proc.devRef .tc main_v17)
    = concatenate S128x128 0
        [⟨S64x128, concatenate S64x128 1 [⟨S64x64, Cert.ReferenceIdeal.Read.val_main_v13 (F := Ideal) (W (Proc.devRef .tc main_arg2))⟩,
            ⟨S64x64, broadcastInDim S64x64 ![] bcast_S_S64x64 (constant (F := Ideal) S_ .f32 0x00000000#32)⟩] concatenates_S64x64_S64x64_S64x128_d1⟩,
         ⟨S64x128, concatenate S64x128 1 [⟨S64x64, broadcastInDim S64x64 ![] bcast_S_S64x64 (constant (F := Ideal) S_ .f32 0x00000000#32)⟩,
            ⟨S64x64, Cert.ReferenceIdeal.Read.val_main_v13 (F := Ideal) (W (Proc.devRef .tc main_arg2))⟩] concatenates_S64x64_S64x64_S64x128_d1⟩]
        concatenates_S64x128_S64x128_S128x128_d0 := by
  after_results_simp
  rfl

theorem pre_v19 : StableHlo.after (hostOps0 (F := Ideal)) W (Proc.devRef .tc main_v19)
    = shapeCast S1x128 (concatenate S128 0 [⟨S64, W (Proc.devRef .tc main_arg3)⟩, ⟨S64, W (Proc.devRef .tc main_arg3)⟩] concatenates_S64_S64_S128_d0)
        shapeCasts_S128_S1x128 := by
  after_results_simp
  rfl

theorem pre_v21 : StableHlo.after (hostOps0 (F := Ideal)) W (Proc.devRef .tc main_v21)
    = shapeCast S1x128 (concatenate S128 0 [⟨S64, W (Proc.devRef .tc main_arg4)⟩, ⟨S64, W (Proc.devRef .tc main_arg4)⟩] concatenates_S64_S64_S128_d0)
        shapeCasts_S128_S1x128 := by
  after_results_simp
  rfl

theorem pre_v23 : StableHlo.after (hostOps0 (F := Ideal)) W (Proc.devRef .tc main_v23)
    = shapeCast S1x128 (concatenate S128 0 [⟨S64, W (Proc.devRef .tc main_arg5)⟩, ⟨S64, W (Proc.devRef .tc main_arg5)⟩] concatenates_S64_S64_S128_d0)
        shapeCasts_S128_S1x128 := by
  after_results_simp
  rfl

end Cert.HostStretch

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.LibColReduce.lean ====
/-
  A reduction over the FIRST axis of a matrix, read at a coordinate.

  A matrix `[a, b]` summed over its row axis gives, at column `c`, the sum over `r : Fin a` of the entry `(r, c)`:
  the library states the sum over the reduced index with the coordinate re-inserted; here the re-inserted index is
  written by its coordinates. (The companion of the last-axis forms.) Library imports only.
-/
import Idealize.ShloMosaic.PureOps.Ideal.Laws
import Idealize.ShloMosaic.Lib.ValueIdx

noncomputable section

namespace Cert.LibColReduce

open Idealize.ShloMosaic Idealize.ShloMosaic.ValueIdx

variable {φ : FTy}

/-- Column `c` with row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d; apply Fin.ext
  fin_cases d <;> rfl

/-- A sum of a matrix down its rows, at column `c`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

end Cert.LibColReduce

end
-- ==== Proof.Region0.lean ====
/-
  The first pipelined region: the packed linear layer with its per-tile column sums.

  Each of its ten grid points takes 5000 packed rows of the sparse product and of the input, the whole [128,128] block
  matrix and the [1,128] bias row, and writes back (i) the 5000 rows of  (rows * block + bias) + input,  (ii) an
  [8,128] block whose first row holds the column sums of those 5000 rows and whose other seven rows are zero, and
  (iii) the same for the squares. The row blocks tile the three arrays, so after the region each array is one function
  of the arrays found at entry: the packed layer, its per-tile sums, and the per-tile sums of its squares.
-/
import proofs.«167349_j88201448390851_2_alg».proof.Proof.Gen.KernelIdeal.Frame
import proofs.«167349_j88201448390851_2_alg».proof.Proof.Spec
import proofs.«167349_j88201448390851_2_alg».proof.Proof.LibContract
import proofs.«167349_j88201448390851_2_alg».proof.Proof.LibColReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region0

open Cert.KernelIdeal Cert.KernelIdeal.Gen Cert.BnSpec
open Idealize.ShloMosaic Idealize.ShloMosaic.TcCoe Idealize.ShloMosaic.ValueIdx Idealize.ShloMosaic.Pipeline Idealize.SL.Sem
open scoped BigOperators

/-! ## The matrix product's operand indices -/

theorem mm_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem mm_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem mm_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem mm_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row r and lane l: the sum over the 128 contraction positions. -/
theorem mm_apply (a : FVec Ideal S5000x128 .bf16) (b : FVec Ideal S128x128 .bf16) (r : Fin 5000) (l : Fin 128) :
    FloatOps.matmul dot_S5000x128_S128x128_S5000x128_1_0_0_1_n_n none a b (constant (F := Ideal) S5000x128 .f32 0x00000000#32) (ix2 r l)
      = ∑ k : Fin 128, a (ix2 r k) * b (ix2 k l) :=
  Cert.LibContract.matmul_zero_apply dot_S5000x128_S128x128_S5000x128_1_0_0_1_n_n 128 rfl rfl none a b (ix2 r l)
    (fun k => ix2 r k) (fun k => ix2 k l)
    (fun q k hk => funext fun d => Fin.ext (by
      match d with
      | ⟨0, _⟩ => exact mm_lhs0 _ _
      | ⟨1, _⟩ => exact (mm_lhs1 _ _).trans hk))
    (fun q k hk => funext fun d => Fin.ext (by
      match d with
      | ⟨0, _⟩ => exact (mm_rhs0 _ _).trans hk
      | ⟨1, _⟩ => exact mm_rhs1 _ _))

theorem bias_apply (x3 : Vec Ideal S1x128 .f32) (r : Fin 5000) (l : Fin 128) :
    broadcastTo S5000x128 x3 broadcasts_S1x128_S5000x128 (ix2 r l) = x3 (ix2 (0 : Fin 1) l) :=
  broadcastTo_apply x3 broadcasts_S1x128_S5000x128 (ix2 r l) (ix2 (0 : Fin 1) l) (fun a => by
    match a with
    | ⟨0, _⟩ => rfl
    | ⟨1, _⟩ => rfl)

/-! ## The stored values at an index -/

/-- The first stored value at row r, lane l of a block: the row of the first operand against the column of the
    weights, plus the bias lane, plus the residual entry. -/
theorem pay1_apply (x0 x1 : Vec Ideal S5000x128 .f32) (x2 : Vec Ideal S128x128 .f32) (x3 : Vec Ideal S1x128 .f32)
    (r : Fin 5000) (l : Fin 128) :
    k0_pay1 x0 x2 x3 x1 (ix2 r l)
      = ((∑ k : Fin 128, x0 (ix2 r k) * x2 (ix2 k l)) + x3 (ix2 (0 : Fin 1) l)) + x1 (ix2 r l) := by
  unfold k0_pay1
  simp only [shapeCast_self]
  rw [addf_apply, addf_apply, bias_apply]
  refine congrArg (fun z => z + x3 (ix2 (0 : Fin 1) l) + x1 (ix2 r l)) ?_
  exact mm_apply (truncf FTy.bf16 x0 bitsLt_bf16_f32) (truncf FTy.bf16 x2 bitsLt_bf16_f32) r l

/-- The column sums of a block laid on top of seven rows of zeros. -/
def colStack (p : FVec Ideal S5000x128 .f32) : FVec Ideal S8x128 .f32 :=
  concatenate S8x128 0 [⟨S1x128, shapeCast S1x128 (multiReduction (F := Ideal) .add [0] S128 p 0x00000000#32 reduces_S5000x128_S128 (.inl rfl) rfl) shapeCasts_S128_S1x128⟩, ⟨S7x128, k0_pay2 (F := Ideal)⟩] concatenates_S1x128_S7x128_S8x128_d0

theorem pay3_eq (x0 x1 : Vec Ideal S5000x128 .f32) (x2 : Vec Ideal S128x128 .f32) (x3 : Vec Ideal S1x128 .f32) :
    k0_pay3 x0 x2 x3 x1 = colStack (k0_pay1 x0 x2 x3 x1) := rfl

theorem pay4_eq (x0 x1 : Vec Ideal S5000x128 .f32) (x2 : Vec Ideal S128x128 .f32) (x3 : Vec Ideal S1x128 .f32) :
    k0_pay4 x0 x2 x3 x1 = colStack (mulf (k0_pay1 x0 x2 x3 x1) (k0_pay1 x0 x2 x3 x1)) := rfl

/-- Row 0 of the stack holds the column sums. -/
theorem colStack_apply_zero (p : FVec Ideal S5000x128 .f32) (l : Fin 128) :
    colStack p (ix2 (0 : Fin 8) l) = ∑ r : Fin 5000, p (ix2 r l) := by
  unfold colStack
  refine (concatenate_pair_apply_left 0 _ _ concatenates_S1x128_S7x128_S8x128_d0 (ix2 (0 : Fin 8) l) rfl (ix2 (0 : Fin 1) l) (fun b => by
    match b with
    | ⟨0, _⟩ => rfl
    | ⟨1, _⟩ => rfl)).trans ?_
  refine (shapeCast_apply _ shapeCasts_S128_S1x128 (ix2 (0 : Fin 1) l) (ix1 l) (by
    rw [Shape.rowMajor_val_one, Shape.rowMajor_val_two]; show l.val = 0 * 128 + l.val; omega)).trans ?_
  exact Cert.LibColReduce.multiReduction_add_col p 0x00000000#32 reduces_S5000x128_S128 (.inl rfl) rfl l

/-- Rows 1 to 7 of the stack are zero. -/
theorem colStack_apply_succ (p : FVec Ideal S5000x128 .f32) (q : Fin 8) (q' : Fin 7) (hq : q.val = q'.val + 1) (l : Fin 128) :
    colStack p (ix2 q l) = 0 := by
  unfold colStack
  refine (concatenate_pair_apply_right 0 _ _ concatenates_S1x128_S7x128_S8x128_d0 (ix2 q l) rfl rfl (ix2 q' l) (fun b hb => by
    match b, hb with
    | ⟨0, _⟩, hb => exact (hb (Fin.ext rfl)).elim
    | ⟨1, _⟩, _ => rfl) (by show q'.val + 1 = q.val; omega)).trans ?_
  unfold k0_pay2
  exact Ideal.ofBits_zero_f32

/-! ## The blocks of the region's windows -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the row-blocked windows sit at block row t, lane block 0;
    the weights and the bias row are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first operand's block at point t is rows 5000 t .. 5000 t + 4999 of its array. -/
theorem blk0_apply (c : Dev nD) (t : Fin cfg0.N) (y : S5000x128.Idx) (k : S50000x128.Idx)
    (hk0 : (k 0).val = 5000 * t.val + (y 0).val) (hk1 : (k 1).val = (y 1).val) :
    (iblk0 V c 0 t : Vec Ideal S5000x128 .f32) y = (V c main_v24 : S50000x128.Idx → EReal) k := by
  obtain ⟨e0, e1, -⟩ := idx_facts t
  unfold iblk0
  rw [View.read_apply]
  show V c main_v24 _ = V c main_v24 _
  refine congrArg _ (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The residual's block at point t is rows 5000 t .. 5000 t + 4999 of its array. -/
theorem blk1_apply (c : Dev nD) (t : Fin cfg0.N) (y : S5000x128.Idx) (k : S50000x128.Idx)
    (hk0 : (k 0).val = 5000 * t.val + (y 0).val) (hk1 : (k 1).val = (y 1).val) :
    (iblk0 V c 1 t : Vec Ideal S5000x128 .f32) y = (V c main_v25 : S50000x128.Idx → EReal) k := by
  obtain ⟨-, -, e0, e1, -⟩ := idx_facts t
  unfold iblk0
  rw [View.read_apply]
  show V c main_v25 _ = V c main_v25 _
  refine congrArg _ (funext fun a => Fin.ext ?_)
  match a with
  | ⟨0, _⟩ => show win0_1.index t (0 : Fin 2) * 5000 + 1 * (y 0).val = (k 0).val; rw [e0, hk0]; omega
  | ⟨1, _⟩ => show win0_1.index t (1 : Fin 2) * 128 + 1 * (y 1).val = (k 1).val; rw [e1, hk1]; omega

/-- The weights' block at every point is the whole array. -/
theorem blk2_apply (c : Dev nD) (t : Fin cfg0.N) (y : S128x128.Idx) :
    (iblk0 V c 2 t : Vec Ideal S128x128 .f32) y = (V c main_v17 : S128x128.Idx → EReal) y := by
  obtain ⟨-, -, -, -, e0, e1, -⟩ := idx_facts t
  unfold iblk0
  rw [View.read_apply]
  show V c main_v17 _ = V c main_v17 _
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block at every point is the whole row. -/
theorem blk3_apply (c : Dev nD) (t : Fin cfg0.N) (y : S1x128.Idx) :
    (iblk0 V c 3 t : Vec Ideal S1x128 .f32) y = (V c main_v19 : S1x128.Idx → EReal) y := by
  obtain ⟨-, -, -, -, -, -, e0, e1, -⟩ := idx_facts t
  unfold iblk0
  rw [View.read_apply]
  show V c main_v19 _ = V c main_v19 _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-! ## What a point stores, as the packed layer of the whole arrays -/

omit V in
/-- At a point whose operand blocks are rows 5000 T .. 5000 T + 4999 of the arrays s and x, with the whole weights
    w and bias row b, the first stored value at local row y is the packed linear layer at array row 5000 T + y. -/
theorem point_lin (x0 x1 : Vec Ideal S5000x128 .f32) (x2 : Vec Ideal S128x128 .f32) (x3 : Vec Ideal S1x128 .f32)
    (s x : Packed.Idx → EReal) (w : Block.Idx → EReal) (b : Lanes.Idx → EReal) (T : ℕ)
    (h0 : ∀ (y : S5000x128.Idx) (k : S50000x128.Idx), (k 0).val = 5000 * T + (y 0).val → (k 1).val = (y 1).val → x0 y = s k)
    (h1 : ∀ (y : S5000x128.Idx) (k : S50000x128.Idx), (k 0).val = 5000 * T + (y 0).val → (k 1).val = (y 1).val → x1 y = x k)
    (h2 : ∀ y : S128x128.Idx, x2 y = w y) (h3 : ∀ y : S1x128.Idx, x3 y = b y)
    (y : S5000x128.Idx) (k : S50000x128.Idx) (hk0 : (k 0).val = 5000 * T + (y 0).val) (hk1 : (k 1).val = (y 1).val) :
    k0_pay1 x0 x2 x3 x1 y = linP s x w b k := by
  obtain ⟨r, l, rfl⟩ : ∃ (r : Fin 5000) (l : Fin 128), y = ix2 r l := ⟨y 0, y 1, eq_ix2 y⟩
  have hl : pcol k = l := Fin.ext hk1
  rw [pay1_apply]
  unfold linP
  rw [hl, h3, h1 (ix2 r l) k hk0 hk1]
  refine congrArg (fun z => z + b (ix2 (0 : Fin 1) l) + x k) ?_
  refine Finset.sum_congr rfl fun q _ => ?_
  rw [h2, h0 (ix2 r q) (ix2 (prow k) q) hk0 rfl]

/-- WHAT POINT t WRITES BACK into the first result: its block of the packed linear layer of the arrays as the
    region finds them. -/
theorem flushed4_eq (c : Dev nD) (t : Fin cfg0.N) :
    (dat0 (F := Ideal) V c).flushed 4 t
      = ((cfg0.win 4).blk t).view.read (Elt Ideal) (linP (V c main_v24) (V c main_v25) (V c main_v17) (V c main_v19)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e0, e1, -⟩ := idx_facts t
  funext j
  rw [View.read_apply]
  refine point_lin _ _ _ _ _ _ _ _ t.val (blk0_apply V c t) (blk1_apply V c t) (blk2_apply V c t) (blk3_apply V c t) j _ ?_ ?_
  · show win0_4.index t (0 : Fin 2) * 5000 + 1 * (j 0).val = 5000 * t.val + (j 0).val; rw [e0]; omega
  · show win0_4.index t (1 : Fin 2) * 128 + 1 * (j 1).val = (j 1).val; rw [e1]; omega

/-! ## From blocks to the first result array -/

omit V in
/-- An index of the first result array is in point t's block iff each coordinate is in the block's range on its axis. -/
theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v26_0).slice (win0_4.rect t)).set ↔ _
  rw [View.set_slice_whole, Rect.mem_set_unit]
  exact Iff.rfl

omit V in
/-- Row r of the first result array lies in the block of point r / 5000. -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_4 _, ?_⟩
  rw [mem_blk4]
  obtain ⟨-, -, -, -, -, -, -, -, e0, e1, -⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- THE FIRST RESULT ARRAY after the region: the packed linear layer of the arrays as the region finds them. -/
theorem final0_4 (c : Dev nD) :
    (dat0 (F := Ideal) V c).arrAt 4 cfg0.N = BnSpec.linP (V c main_v24) (V c main_v25) (V c main_v17) (V c main_v19) :=
  (dat0 (F := Ideal) V c).arrAt_eq_of_cover 4 (BnSpec.linP (V c main_v24) (V c main_v25) (V c main_v17) (V c main_v19))
    (fun t _ => flushed4_eq V c t) cover4

/-! ## The per-tile partial sums -/

omit V in
/-- At a point whose block p is rows 5000 T .. 5000 T + 4999 of the array f, the stack of p's column sums on seven
    zero rows is rows 8 T .. 8 T + 7 of the per-tile sums of f. -/
theorem point_sums (p : FVec Ideal S5000x128 .f32) (f : Packed.Idx → EReal) (T : ℕ)
    (hp : ∀ (y : S5000x128.Idx) (k : S50000x128.Idx), (k 0).val = 5000 * T + (y 0).val → (k 1).val = (y 1).val → p y = f k)
    (y : S8x128.Idx) (q : S80x128.Idx) (hq0 : (q 0).val = 8 * T + (y 0).val) (hq1 : (q 1).val = (y 1).val) :
    colStack p y = tileSums f q := by
  obtain ⟨y0, l, rfl⟩ : ∃ (y0 : Fin 8) (l : Fin 128), y = ix2 y0 l := ⟨y 0, y 1, eq_ix2 y⟩
  have h0 : (q 0).val = 8 * T + y0.val := hq0
  have h1 : (q 1).val = l.val := hq1
  have hy : y0.val < 8 := y0.isLt
  unfold tileSums
  by_cases hz0 : y0.val = 0
  · obtain rfl : y0 = (0 : Fin 8) := Fin.ext hz0
    rw [if_pos (by omega), colStack_apply_zero]
    refine Finset.sum_congr rfl fun r _ => ?_
    refine hp (ix2 r l) _ ?_ h1
    show 5000 * ((q 0).val / 8) + r.val = 5000 * T + r.val
    omega
  · rw [if_neg (by omega)]
    exact colStack_apply_succ p y0 ⟨y0.val - 1, by omega⟩ (by show y0.val = y0.val - 1 + 1; omega) l

/-- WHAT POINT t WRITES BACK into the second result: its block of the per-tile sums of the packed linear layer. -/
theorem flushed5_eq (c : Dev nD) (t : Fin cfg0.N) :
    (dat0 (F := Ideal) V c).flushed 5 t
      = ((cfg0.win 5).blk t).view.read (Elt Ideal) (tileSums (linP (V c main_v24) (V c main_v25) (V c main_v17) (V c main_v19))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay3_eq]
  obtain ⟨-, -, -, -, -, -, -, -, -, -, e0, e1, -⟩ := idx_facts t
  funext j
  rw [View.read_apply]
  refine point_sums _ _ t.val (fun y k hk0 hk1 => point_lin _ _ _ _ _ _ _ _ t.val (blk0_apply V c t) (blk1_apply V c t) (blk2_apply V c t) (blk3_apply V c t) y k hk0 hk1) j _ ?_ ?_
  · show win0_5.index t (0 : Fin 2) * 8 + 1 * (j 0).val = 8 * t.val + (j 0).val; rw [e0]; omega
  · show win0_5.index t (1 : Fin 2) * 128 + 1 * (j 1).val = (j 1).val; rw [e1]; omega

/-- WHAT POINT t WRITES BACK into the third result: its block of the per-tile sums of the squared packed linear layer. -/
theorem flushed6_eq (c : Dev nD) (t : Fin cfg0.N) :
    (dat0 (F := Ideal) V c).flushed 6 t
      = ((cfg0.win 6).blk t).view.read (Elt Ideal) (tileSums (fun j => linP (V c main_v24) (V c main_v25) (V c main_v17) (V c main_v19) j * linP (V c main_v24) (V c main_v25) (V c main_v17) (V c main_v19) j)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  rw [pay4_eq]
  obtain ⟨-, -, -, -, -, -, -, -, -, -, -, -, e0, e1⟩ := idx_facts t
  funext j
  rw [View.read_apply]
  refine point_sums (mulf (k0_pay1 (iblk0 V c 0 t) (iblk0 V c 2 t) (iblk0 V c 3 t) (iblk0 V c 1 t)) (k0_pay1 (iblk0 V c 0 t) (iblk0 V c 2 t) (iblk0 V c 3 t) (iblk0 V c 1 t)))
    (fun j => linP (V c main_v24) (V c main_v25) (V c main_v17) (V c main_v19) j * linP (V c main_v24) (V c main_v25) (V c main_v17) (V c main_v19) j)
    t.val (fun y k hk0 hk1 => ?_) j _ ?_ ?_
  · rw [mulf_apply, point_lin _ _ _ _ _ _ _ _ t.val (blk0_apply V c t) (blk1_apply V c t) (blk2_apply V c t) (blk3_apply V c t) y k hk0 hk1]
  · show win0_6.index t (0 : Fin 2) * 8 + 1 * (j 0).val = 8 * t.val + (j 0).val; rw [e0]; omega
  · show win0_6.index t (1 : Fin 2) * 128 + 1 * (j 1).val = (j 1).val; rw [e1]; omega

/-! ## From blocks to the partial-sum arrays -/

omit V in
/-- An index of the second result array is in point t's block iff each coordinate is in the block's range on its axis. -/
theorem mem_blk5 (t : Fin cfg0.N) (i : S80x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v26_1).slice (win0_5.rect t)).set ↔ _
  rw [View.set_slice_whole, Rect.mem_set_unit]
  exact Iff.rfl

omit V in
/-- The same for the third result array. -/
theorem mem_blk6 (t : Fin cfg0.N) (i : S80x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v26_2).slice (win0_6.rect t)).set ↔ _
  rw [View.set_slice_whole, Rect.mem_set_unit]
  exact Iff.rfl

omit V in
/-- Row q of the second result array lies in the block of point q / 8. -/
theorem cover5 (i : S80x128.Idx) :
    ∃ t : Fin cfg0.N, (cfg0.win 5).flush t = true ∧ i ∈ ((cfg0.win 5).blk t).view.set := by
  have hi0 : (i 0).val < 80 := (i 0).isLt
  have hi1 : (i 1).val < 128 := (i 1).isLt
  have hN : cfg0.N = 10 := N_0
  refine ⟨⟨(i 0).val / 8, by rw [hN]; omega⟩, flush0_5 _, ?_⟩
  rw [mem_blk5]
  obtain ⟨-, -, -, -, -, -, -, -, -, -, e0, e1, -⟩ := idx_facts ⟨(i 0).val / 8, by rw [hN]; omega⟩
  intro a
  match a with
  | ⟨0, _⟩ =>
    show win0_5.index _ (0 : Fin 2) * 8 ≤ (i 0).val ∧ (i 0).val < win0_5.index _ (0 : Fin 2) * 8 + 8
    rw [e0]; show (i 0).val / 8 * 8 ≤ (i 0).val ∧ (i 0).val < (i 0).val / 8 * 8 + 8; omega
  | ⟨1, _⟩ =>
    show win0_5.index _ (1 : Fin 2) * 128 ≤ (i 1).val ∧ (i 1).val < win0_5.index _ (1 : Fin 2) * 128 + 128
    rw [e1]; omega

omit V in
/-- Row q of the third result array lies in the block of point q / 8. -/
theorem cover6 (i : S80x128.Idx) :
    ∃ t : Fin cfg0.N, (cfg0.win 6).flush t = true ∧ i ∈ ((cfg0.win 6).blk t).view.set := by
  have hi0 : (i 0).val < 80 := (i 0).isLt
  have hi1 : (i 1).val < 128 := (i 1).isLt
  have hN : cfg0.N = 10 := N_0
  refine ⟨⟨(i 0).val / 8, by rw [hN]; omega⟩, flush0_6 _, ?_⟩
  rw [mem_blk6]
  obtain ⟨-, -, -, -, -, -, -, -, -, -, -, -, e0, e1⟩ := idx_facts ⟨(i 0).val / 8, by rw [hN]; omega⟩
  intro a
  match a with
  | ⟨0, _⟩ =>
    show win0_6.index _ (0 : Fin 2) * 8 ≤ (i 0).val ∧ (i 0).val < win0_6.index _ (0 : Fin 2) * 8 + 8
    rw [e0]; show (i 0).val / 8 * 8 ≤ (i 0).val ∧ (i 0).val < (i 0).val / 8 * 8 + 8; omega
  | ⟨1, _⟩ =>
    show win0_6.index _ (1 : Fin 2) * 128 ≤ (i 1).val ∧ (i 1).val < win0_6.index _ (1 : Fin 2) * 128 + 128
    rw [e1]; omega

/-- THE SECOND RESULT ARRAY after the region: the per-tile column sums of the packed linear layer. -/
theorem final0_5 (c : Dev nD) :
    (dat0 (F := Ideal) V c).arrAt 5 cfg0.N = BnSpec.tileSums (BnSpec.linP (V c main_v24) (V c main_v25) (V c main_v17) (V c main_v19)) :=
  (dat0 (F := Ideal) V c).arrAt_eq_of_cover 5 (BnSpec.tileSums (BnSpec.linP (V c main_v24) (V c main_v25) (V c main_v17) (V c main_v19)))
    (fun t _ => flushed5_eq V c t) cover5

/-- THE THIRD RESULT ARRAY after the region: the per-tile column sums of the squares of the packed linear layer. -/
theorem final0_6 (c : Dev nD) :
    (dat0 (F := Ideal) V c).arrAt 6 cfg0.N = BnSpec.tileSums (fun j => BnSpec.linP (V c main_v24) (V c main_v25) (V c main_v17) (V c main_v19) j * BnSpec.linP (V c main_v24) (V c main_v25) (V c main_v17) (V c main_v19) j) :=
  (dat0 (F := Ideal) V c).arrAt_eq_of_cover 6 (BnSpec.tileSums (fun j => BnSpec.linP (V c main_v24) (V c main_v25) (V c main_v17) (V c main_v19) j * BnSpec.linP (V c main_v24) (V c main_v25) (V c main_v17) (V c main_v19) j))
    (fun t _ => flushed6_eq V c t) cover6

end Cert.Region0

end
-- ==== Proof.Region1.lean ====
/-
  The second pipelined region: the normalisation, lane by lane.

  Its ten grid points each take 5000 packed rows of the first region's result and four [1,128] rows (mean, inverse
  standard deviation, scale, shift), and write back 5000 rows of
      max (((h - mean) * inv) * scale + shift) 0,
  every row vector read on its one row. The blocks of 5000 rows tile the 50000 rows of the array, so after the region
  the whole array is that one function of the arrays the region found at its entry.
-/
import proofs.«167349_j88201448390851_2_alg».proof.Proof.Gen.KernelIdeal.Frame
import proofs.«167349_j88201448390851_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region1

open Cert.KernelIdeal Cert.KernelIdeal.Gen Cert.BnSpec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's stored value at row r, lane l of its block. -/
theorem pay_apply (x0 : Vec Ideal S5000x128 .f32) (x1 x2 x3 x4 : Vec Ideal S1x128 .f32) (r : Fin 5000) (l : Fin 128) :
    k1_pay1 x0 x1 x2 x3 x4 (ix2 r l)
      = max ((((x0 (ix2 r l) - x1 (ix2 (0 : Fin 1) l)) * x2 (ix2 (0 : Fin 1) l)) * x3 (ix2 (0 : Fin 1) l)) + x4 (ix2 (0 : Fin 1) l)) 0 := by
  unfold k1_pay1
  simp only [shapeCast_self]
  show max ((((x0 (ix2 r l) - broadcastTo S5000x128 x1 broadcasts_S1x128_S5000x128 (ix2 r l))
      * broadcastTo S5000x128 x2 broadcasts_S1x128_S5000x128 (ix2 r l))
      * broadcastTo S5000x128 x3 broadcasts_S1x128_S5000x128 (ix2 r l))
      + broadcastTo S5000x128 x4 broadcasts_S1x128_S5000x128 (ix2 r l)) (Ideal.ofBits .f32 0x00000000#32) = _
  rw [broadcastTo_1b_ab_apply, broadcastTo_1b_ab_apply, broadcastTo_1b_ab_apply, broadcastTo_1b_ab_apply, Ideal.ofBits_zero_f32]

variable (V : (c : Dev nD) → (b : Ref sig .tc) → Buf (Elt Ideal) ((c : Thread nD τ).loc b))

/-- The index maps over the grid: the row-blocked windows sit at block (t, 0), the row vectors at block (0, 0). -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the normalised array. -/
theorem flushed_eq (c : Dev nD) (t : Fin cfg1.N) :
    (dat1 (F := Ideal) V c).flushed 5 t = ((cfg1.win 5).blk t).view.read (Elt Ideal)
      (BnSpec.normP (V c main_v26_0) (V c main_v46) (V c main_v47) (V c main_v21) (V c main_v23)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  funext j
  obtain ⟨r, l, rfl⟩ : ∃ (r : Fin 5000) (l : Fin 128), j = ix2 r l := ⟨j 0, j 1, eq_ix2 j⟩
  show k1_pay1 (iblk1 V c 0 t) (iblk1 V c 1 t) (iblk1 V c 2 t) (iblk1 V c 3 t) (iblk1 V c 4 t) (ix2 r l)
    = BnSpec.normP (V c main_v26_0) (V c main_v46) (V c main_v47) (V c main_v21) (V c main_v23) (((cfg1.win 5).blk t).view.emb (ix2 r l))
  refine (pay_apply (iblk1 V c 0 t) (iblk1 V c 1 t) (iblk1 V c 2 t) (iblk1 V c 3 t) (iblk1 V c 4 t) r l).trans ?_
  unfold BnSpec.normP
  have h0 : ((cfg1.win 0).blk t).view.emb (ix2 r l) = ((cfg1.win 5).blk t).view.emb (ix2 r l) := by
    funext a; apply Fin.ext
    match a with
    | ⟨0, _⟩ => show win1_0.index t (0 : Fin 2) * 5000 + 1 * r.val = win1_5.index t (0 : Fin 2) * 5000 + 1 * r.val; omega
    | ⟨1, _⟩ => show win1_0.index t (1 : Fin 2) * 128 + 1 * l.val = win1_5.index t (1 : Fin 2) * 128 + 1 * l.val; omega
  have h1 : ((cfg1.win 1).blk t).view.emb (ix2 (0 : Fin 1) l) = ix2 (0 : Fin 1) (pcol (((cfg1.win 5).blk t).view.emb (ix2 r l))) := by
    funext a; apply Fin.ext
    match a with
    | ⟨0, _⟩ => show win1_1.index t (0 : Fin 2) * 1 + 1 * 0 = 0; omega
    | ⟨1, _⟩ => show win1_1.index t (1 : Fin 2) * 128 + 1 * l.val = win1_5.index t (1 : Fin 2) * 128 + 1 * l.val; omega
  have h2 : ((cfg1.win 2).blk t).view.emb (ix2 (0 : Fin 1) l) = ix2 (0 : Fin 1) (pcol (((cfg1.win 5).blk t).view.emb (ix2 r l))) := by
    funext a; apply Fin.ext
    match a with
    | ⟨0, _⟩ => show win1_2.index t (0 : Fin 2) * 1 + 1 * 0 = 0; omega
    | ⟨1, _⟩ => show win1_2.index t (1 : Fin 2) * 128 + 1 * l.val = win1_5.index t (1 : Fin 2) * 128 + 1 * l.val; omega
  have h3 : ((cfg1.win 3).blk t).view.emb (ix2 (0 : Fin 1) l) = ix2 (0 : Fin 1) (pcol (((cfg1.win 5).blk t).view.emb (ix2 r l))) := by
    funext a; apply Fin.ext
    match a with
    | ⟨0, _⟩ => show win1_3.index t (0 : Fin 2) * 1 + 1 * 0 = 0; omega
    | ⟨1, _⟩ => show win1_3.index t (1 : Fin 2) * 128 + 1 * l.val = win1_5.index t (1 : Fin 2) * 128 + 1 * l.val; omega
  have h4 : ((cfg1.win 4).blk t).view.emb (ix2 (0 : Fin 1) l) = ix2 (0 : Fin 1) (pcol (((cfg1.win 5).blk t).view.emb (ix2 r l))) := by
    funext a; apply Fin.ext
    match a with
    | ⟨0, _⟩ => show win1_4.index t (0 : Fin 2) * 1 + 1 * 0 = 0; omega
    | ⟨1, _⟩ => show win1_4.index t (1 : Fin 2) * 128 + 1 * l.val = win1_5.index t (1 : Fin 2) * 128 + 1 * l.val; omega
  have a0 : iblk1 V c 0 t (ix2 r l) = (V c main_v26_0 : S50000x128.Idx → EReal) (((cfg1.win 5).blk t).view.emb (ix2 r l)) :=
    congrArg (V c main_v26_0 : S50000x128.Idx → EReal) h0
  have a1 : iblk1 V c 1 t (ix2 (0 : Fin 1) l) = (V c main_v46 : S1x128.Idx → EReal) (ix2 (0 : Fin 1) (pcol (((cfg1.win 5).blk t).view.emb (ix2 r l)))) :=
    congrArg (V c main_v46 : S1x128.Idx → EReal) h1
  have a2 : iblk1 V c 2 t (ix2 (0 : Fin 1) l) = (V c main_v47 : S1x128.Idx → EReal) (ix2 (0 : Fin 1) (pcol (((cfg1.win 5).blk t).view.emb (ix2 r l)))) :=
    congrArg (V c main_v47 : S1x128.Idx → EReal) h2
  have a3 : iblk1 V c 3 t (ix2 (0 : Fin 1) l) = (V c main_v21 : S1x128.Idx → EReal) (ix2 (0 : Fin 1) (pcol (((cfg1.win 5).blk t).view.emb (ix2 r l)))) :=
    congrArg (V c main_v21 : S1x128.Idx → EReal) h3
  have a4 : iblk1 V c 4 t (ix2 (0 : Fin 1) l) = (V c main_v23 : S1x128.Idx → EReal) (ix2 (0 : Fin 1) (pcol (((cfg1.win 5).blk t).view.emb (ix2 r l)))) :=
    congrArg (V c main_v23 : S1x128.Idx → EReal) h4
  rw [a0, a1, a2, a3, a4]

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- Every packed row lies in the block of the point row / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := by decide
  let t : Fin cfg1.N := ⟨(i 0).val / 5000, by rw [hN]; omega⟩
  obtain ⟨e0, e1, e2, e3, -⟩ := idx_facts t
  refine ⟨t, flush1_5 t, ?_⟩
  rw [mem_blk]
  intro a
  have ht : t.val = (i 0).val / 5000 := rfl
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array the second region leaves: the normalisation of the arrays it found. -/
theorem final (c : Dev nD) : (dat1 (F := Ideal) V c).arrAt 5 cfg1.N
    = BnSpec.normP (V c main_v26_0) (V c main_v46) (V c main_v47) (V c main_v21) (V c main_v23) :=
  (dat1 (F := Ideal) V c).arrAt_eq_of_cover 5 _ (fun t _ => flushed_eq V c t) cover

end Cert.Region1

end
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.RefValue.lean ====
/-
  The reference program read at the shared mathematics.

  The reference's intermediate h is the linear layer with bias and residual applied to the
  aggregated rows; its output is the batch normalisation of h with the variance taken as the
  mean of the squared deviations, followed by the clamp at 0. The word that spells the node
  count denotes the real 100000, and on real data the two forms of the variance agree.
-/
import proofs.«167349_j88201448390851_2_alg».proof.Proof.Gen.ReferenceIdeal.Read
import proofs.«167349_j88201448390851_2_alg».proof.Proof.Spec
import proofs.«167349_j88201448390851_2_alg».proof.Proof.LibMoment
import Idealize.ShloMosaic.Lib.ValueIdx
import Idealize.ShloMosaic.PureOps.Ideal
import Idealize.ShloMosaic.PureOps.Ideal.Laws

noncomputable section

namespace Cert.RefValue

open Cert.ReferenceIdeal Cert.ReferenceIdeal.Read Cert.BnSpec Idealize.ShloMosaic Idealize.ShloMosaic.ValueIdx
open scoped BigOperators

/-! ## The node count and the two variances -/

/-- The f32 word of the node count: sign 0, exponent 143, fraction 4411392, that is
    (2^23 + 4411392) * 2^(143 - 127 - 23) = 12800000 / 128 = 100000. -/
theorem count_eq : BnSpec.count = ((100000 : ℝ) : EReal) := by
  simp [Ideal.ofBits, Ideal.ieee, -EReal.coe_mul]; norm_num

/-- On real data the mean of the squared deviations is the mean of the squares minus the squared mean:
    the moment law at scale 1, where 2 * 1 - 1 * 1 = 1. -/
theorem varDev_eq_varMom (h : BnSpec.Nodes.Idx → EReal) (hreal : ∀ i, Cert.LibMoment.IsReal (h i)) (d : Fin 64) :
    BnSpec.varDev h d = BnSpec.varMom h d := by
  have key := Cert.LibMoment.var_eq (ι := Fin 100000) (100000 : ℝ) (by simp) (by simp)
    (fun n => h (ix2 n d)) (fun n => hreal _) 1 Cert.LibMoment.isReal_one
  have h21 : ((2 : ℝ) : EReal) - 1 = 1 := by
    rw [← EReal.coe_one, ← EReal.coe_sub]
    norm_num
  simp only [one_mul, mul_one, h21] at key
  unfold BnSpec.varDev BnSpec.varMom BnSpec.mean BnSpec.colSum BnSpec.colSumSq
  rw [count_eq]
  exact key

/-! ## The intermediate h -/

/-- The reference's h is the linear layer with bias and residual: the contraction of the aggregated rows
    with the transposed weights, plus the bias of the column, plus the input row. -/
theorem h_eq (x0 : (⟨S100000x64, .f32⟩ : BufTy).Contents (Elt Ideal)) (x1 : (⟨S1600000, .f32⟩ : BufTy).Contents (Elt Ideal))
    (x2 : (⟨S64x64, .f32⟩ : BufTy).Contents (Elt Ideal)) (x3 : (⟨S64, .f32⟩ : BufTy).Contents (Elt Ideal))
    (x6 x7 : (⟨S1600000, .i32⟩ : BufTy).Contents (Elt Ideal)) :
    val_main_v18 (F := Ideal) x0 x1 x2 x3 x6 x7
      = BnSpec.lin (val_main_v12 (F := Ideal) x0 x1 x6 x7) x0 (val_main_v13 (F := Ideal) x2) x3 := by
  funext i
  have el : ∀ k : Fin 64, lidx_main_v14 i k = ix2 (nrow i) k := fun k =>
    funext fun a => Fin.ext (by match a with | ⟨0, _⟩ => rfl | ⟨1, _⟩ => rfl)
  have er : ∀ k : Fin 64, ridx_main_v14 i k = ix2 k (ncol i) := fun k =>
    funext fun a => Fin.ext (by match a with | ⟨0, _⟩ => rfl | ⟨1, _⟩ => rfl)
  have eb : idx_main_v15 (idx_main_v16 i) = ix1 (ncol i) :=
    funext fun a => Fin.ext (by match a with | ⟨0, _⟩ => rfl)
  rw [val_main_v18_apply, val_main_v17_apply, val_main_v14_apply, val_main_v16_apply, val_main_v15_apply]
  generalize val_main_v12 (F := Ideal) x0 x1 x6 x7 = s
  generalize val_main_v13 (F := Ideal) x2 = a
  simp only [el, er, eb, Ideal.addf_def]
  rfl

/-! ## The statistics and the output -/

/-- The reference's per-feature mean: the column sum of h, started at 0, divided by the node count. -/
theorem mean_read (x0 : (⟨S100000x64, .f32⟩ : BufTy).Contents (Elt Ideal)) (x1 : (⟨S1600000, .f32⟩ : BufTy).Contents (Elt Ideal))
    (x2 : (⟨S64x64, .f32⟩ : BufTy).Contents (Elt Ideal)) (x3 : (⟨S64, .f32⟩ : BufTy).Contents (Elt Ideal))
    (x6 x7 : (⟨S1600000, .i32⟩ : BufTy).Contents (Elt Ideal)) (d : Fin 64) :
    val_main_v21 (F := Ideal) x0 x1 x2 x3 x6 x7 (ix1 d)
      = BnSpec.mean (val_main_v18 (F := Ideal) x0 x1 x2 x3 x6 x7) d := by
  have e19 : ∀ k : Fin 100000, idx_main_v19 (ix1 d) k = ix2 k d := fun k =>
    funext fun a => Fin.ext (by match a with | ⟨0, _⟩ => rfl | ⟨1, _⟩ => rfl)
  rw [val_main_v21_apply, val_main_v19_apply, val_main_v20_apply, val_main_cst_2_apply, val_main_cst_1_apply]
  generalize val_main_v18 (F := Ideal) x0 x1 x2 x3 x6 x7 = H
  simp only [e19, Ideal.hostDivf_def, Ideal.ofBits_def, Ideal.ofBits_zero_f32, zero_add]
  unfold BnSpec.mean BnSpec.colSum
  rfl

/-- The reference's squared deviation at node n, feature d. -/
theorem dev_read (x0 : (⟨S100000x64, .f32⟩ : BufTy).Contents (Elt Ideal)) (x1 : (⟨S1600000, .f32⟩ : BufTy).Contents (Elt Ideal))
    (x2 : (⟨S64x64, .f32⟩ : BufTy).Contents (Elt Ideal)) (x3 : (⟨S64, .f32⟩ : BufTy).Contents (Elt Ideal))
    (x6 x7 : (⟨S1600000, .i32⟩ : BufTy).Contents (Elt Ideal)) (n : Fin 100000) (d : Fin 64) :
    val_main_v25 (F := Ideal) x0 x1 x2 x3 x6 x7 (ix2 n d)
      = (val_main_v18 (F := Ideal) x0 x1 x2 x3 x6 x7 (ix2 n d) - BnSpec.mean (val_main_v18 (F := Ideal) x0 x1 x2 x3 x6 x7) d)
        * (val_main_v18 (F := Ideal) x0 x1 x2 x3 x6 x7 (ix2 n d) - BnSpec.mean (val_main_v18 (F := Ideal) x0 x1 x2 x3 x6 x7) d) := by
  have e22 : idx_main_v22 (idx_main_v23 (ix2 n d)) = ix1 d :=
    funext fun a => Fin.ext (by match a with | ⟨0, _⟩ => rfl)
  rw [val_main_v25_apply, val_main_v24_apply, val_main_v23_apply, val_main_v22_apply, e22, mean_read]
  rfl

/-- The reference's per-feature variance: the column sum of the squared deviations of h from the mean,
    started at 0, divided by the node count. -/
theorem var_read (x0 : (⟨S100000x64, .f32⟩ : BufTy).Contents (Elt Ideal)) (x1 : (⟨S1600000, .f32⟩ : BufTy).Contents (Elt Ideal))
    (x2 : (⟨S64x64, .f32⟩ : BufTy).Contents (Elt Ideal)) (x3 : (⟨S64, .f32⟩ : BufTy).Contents (Elt Ideal))
    (x6 x7 : (⟨S1600000, .i32⟩ : BufTy).Contents (Elt Ideal)) (d : Fin 64) :
    val_main_v28 (F := Ideal) x0 x1 x2 x3 x6 x7 (ix1 d)
      = BnSpec.varDev (val_main_v18 (F := Ideal) x0 x1 x2 x3 x6 x7) d := by
  have hs : (∑ k : Fin 100000, val_main_v25 (F := Ideal) x0 x1 x2 x3 x6 x7 (idx_main_v26 (ix1 d) k))
      = ∑ n : Fin 100000,
          (val_main_v18 (F := Ideal) x0 x1 x2 x3 x6 x7 (ix2 n d) - BnSpec.mean (val_main_v18 (F := Ideal) x0 x1 x2 x3 x6 x7) d)
          * (val_main_v18 (F := Ideal) x0 x1 x2 x3 x6 x7 (ix2 n d) - BnSpec.mean (val_main_v18 (F := Ideal) x0 x1 x2 x3 x6 x7) d) :=
    Finset.sum_congr rfl fun k _ => by
      have e26 : idx_main_v26 (ix1 d) k = ix2 k d :=
        funext fun a => Fin.ext (by match a with | ⟨0, _⟩ => rfl | ⟨1, _⟩ => rfl)
      rw [e26]
      exact dev_read x0 x1 x2 x3 x6 x7 k d
  rw [val_main_v28_apply, val_main_v26_apply, val_main_v27_apply, val_main_cst_4_apply, val_main_cst_3_apply, hs,
    Ideal.hostDivf_def, Ideal.ofBits_def, Ideal.ofBits_def, Ideal.ofBits_zero_f32, zero_add]
  unfold BnSpec.varDev
  rfl

/-- The reference's output is the normalisation of h by its mean and by the variance of squared deviations,
    scaled, shifted, and clamped below at 0. -/
theorem ref_eq (x0 : (⟨S100000x64, .f32⟩ : BufTy).Contents (Elt Ideal)) (x1 : (⟨S1600000, .f32⟩ : BufTy).Contents (Elt Ideal))
    (x2 : (⟨S64x64, .f32⟩ : BufTy).Contents (Elt Ideal)) (x3 x4 x5 : (⟨S64, .f32⟩ : BufTy).Contents (Elt Ideal))
    (x6 x7 : (⟨S1600000, .i32⟩ : BufTy).Contents (Elt Ideal)) :
    val_main_v44 (F := Ideal) x0 x1 x2 x3 x4 x5 x6 x7
      = BnSpec.normRelu (val_main_v18 (F := Ideal) x0 x1 x2 x3 x6 x7)
          (BnSpec.mean (val_main_v18 (F := Ideal) x0 x1 x2 x3 x6 x7))
          (BnSpec.varDev (val_main_v18 (F := Ideal) x0 x1 x2 x3 x6 x7)) x4 x5 := by
  funext i
  have e42 : idx_main_v41 (idx_main_v42 i) = ix1 (ncol i) :=
    funext fun a => Fin.ext (by match a with | ⟨0, _⟩ => rfl)
  have e39 : idx_main_v38 (idx_main_v39 i) = ix1 (ncol i) :=
    funext fun a => Fin.ext (by match a with | ⟨0, _⟩ => rfl)
  have e30 : idx_main_v29 (idx_main_v30 i) = ix1 (ncol i) :=
    funext fun a => Fin.ext (by match a with | ⟨0, _⟩ => rfl)
  have e36 : idx_main_v35 (idx_main_v36 i) = ix1 (ncol i) :=
    funext fun a => Fin.ext (by match a with | ⟨0, _⟩ => rfl)
  rw [val_main_v44_apply, val_main_v43_apply, val_main_v40_apply, val_main_v37_apply, val_main_v31_apply,
    val_main_v30_apply, val_main_v29_apply, e30, mean_read,
    val_main_v36_apply, val_main_v35_apply, e36, val_main_v34_apply, val_main_v33_apply, var_read,
    val_main_v32_apply, val_main_cst_5_apply,
    val_main_v39_apply, val_main_v38_apply, e39, val_main_v42_apply, val_main_v41_apply, e42,
    val_main_call0_v0_apply, val_main_call0_cst_apply]
  generalize val_main_v18 (F := Ideal) x0 x1 x2 x3 x6 x7 = H
  simp only [Ideal.maximumf_def, Ideal.addf_def, Ideal.mulf_def, Ideal.subf_def, Ideal.hostUnary_rsqrt_def,
    Ideal.ofBits_def, Ideal.ofBits_zero_f32]
  unfold BnSpec.normRelu
  rfl

end Cert.RefValue

end
-- ==== Proof.Bridge.lean ====
/-
  The idealized kernel's result as one function of its arguments.

  Reading the result buffer back through the five segments: the last reshape unpacks the second region's array; that
  array is the lane-by-lane normalisation of the first region's main array by the mean row and the
  reciprocal-standard-deviation row the host made of the first region's partial sums; the first region's main array
  is the packed linear layer of the packed sparse product and the packed input, which is the packing of
  h = (spmm * W^T + b) + x; the partial sums regroup into the column sums of h and of h*h. So the result is
  max (((h - mean h) * rsqrt (varMom h + eps)) * gamma + beta) 0 on node rows, with the variance in its
  mean-of-squares-minus-squared-mean form.
-/
import proofs.«167349_j88201448390851_2_alg».proof.Proof.Gen.KernelIdeal.Frame
import proofs.«167349_j88201448390851_2_alg».proof.Proof.Gen.ReferenceIdeal.Read
import proofs.«167349_j88201448390851_2_alg».proof.Proof.Spec
import proofs.«167349_j88201448390851_2_alg».proof.Proof.PackAlgebra
import proofs.«167349_j88201448390851_2_alg».proof.Proof.Layout
import proofs.«167349_j88201448390851_2_alg».proof.Proof.StatsDefs
import proofs.«167349_j88201448390851_2_alg».proof.Proof.Stats
import proofs.«167349_j88201448390851_2_alg».proof.Proof.HostStretch
import proofs.«167349_j88201448390851_2_alg».proof.Proof.Region0
import proofs.«167349_j88201448390851_2_alg».proof.Proof.Region1
import proofs.«167349_j88201448390851_2_alg».proof.Proof.RefValue

set_option maxRecDepth 16384

noncomputable section

namespace Cert.Bridge

open Cert.KernelIdeal Cert.KernelIdeal.Gen Cert.BnSpec Cert.Stats
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The arguments, and the reference's stages of them -/

abbrev a0 : S100000x64.Idx → EReal := m ((c.tc : Thread nD τ).loc main_arg0)
abbrev a1 : S1600000.Idx → EReal := m ((c.tc : Thread nD τ).loc main_arg1)
abbrev a2 : S64x64.Idx → EReal := m ((c.tc : Thread nD τ).loc main_arg2)
abbrev a3 : S64.Idx → EReal := m ((c.tc : Thread nD τ).loc main_arg3)
abbrev a4 : S64.Idx → EReal := m ((c.tc : Thread nD τ).loc main_arg4)
abbrev a5 : S64.Idx → EReal := m ((c.tc : Thread nD τ).loc main_arg5)
abbrev a6 : S1600000.Idx → BitVec 32 := m ((c.tc : Thread nD τ).loc main_arg6)
abbrev a7 : S1600000.Idx → BitVec 32 := m ((c.tc : Thread nD τ).loc main_arg7)

/-- The sparse product. -/
abbrev spmm : S100000x64.Idx → EReal :=
  Cert.ReferenceIdeal.Read.val_main_v12 (F := Ideal) (a0 m c) (a1 m c) (a6 m c) (a7 m c)
/-- The transposed weight. -/
abbrev wT : S64x64.Idx → EReal := Cert.ReferenceIdeal.Read.val_main_v13 (F := Ideal) (a2 m c)
/-- h = (spmm * W^T + b) + x. -/
abbrev hh : S100000x64.Idx → EReal :=
  Cert.ReferenceIdeal.Read.val_main_v18 (F := Ideal) (a0 m c) (a1 m c) (a2 m c) (a3 m c) (a6 m c) (a7 m c)

/-! ## What the first region finds -/

theorem entry_v24 : V1 m ρ c main_v24 = pack (spmm m c) := by
  show StableHlo.after (hostOps0 (F := Ideal)) (W0 m ρ c) (Proc.devRef .tc main_v24) = _
  rw [HostStretch.pre_v24]
  exact Layout.shapeCast_pack _ _

theorem entry_v25 : V1 m ρ c main_v25 = pack (a0 m c) := by
  show StableHlo.after (hostOps0 (F := Ideal)) (W0 m ρ c) (Proc.devRef .tc main_v25) = _
  rw [HostStretch.pre_v25]
  exact Layout.shapeCast_pack _ _

theorem entry_v17 : V1 m ρ c main_v17 = blockDiag (wT m c) := by
  show StableHlo.after (hostOps0 (F := Ideal)) (W0 m ρ c) (Proc.devRef .tc main_v17) = _
  rw [HostStretch.pre_v17]
  exact Layout.blockDiag_concat _ _ (fun i => Ideal.ofBits_zero_f32) _ _

theorem entry_v19 : V1 m ρ c main_v19 = lanes2 (fun d => a3 m c (ix1 d)) := by
  show StableHlo.after (hostOps0 (F := Ideal)) (W0 m ρ c) (Proc.devRef .tc main_v19) = _
  rw [HostStretch.pre_v19]
  exact Layout.lanes_concat _ _ _

/-! ## What the first region leaves -/

theorem region0_main : (dat0 (F := Ideal) (V1 m ρ) c).arrAt 4 cfg0.N = pack (hh m c) := by
  rw [Region0.final0_4, entry_v24, entry_v25, entry_v17, entry_v19, PackAlgebra.linP_pack, ← RefValue.h_eq]

theorem region0_sums : (dat0 (F := Ideal) (V1 m ρ) c).arrAt 5 cfg0.N = tileSums (pack (hh m c)) := by
  rw [Region0.final0_5, entry_v24, entry_v25, entry_v17, entry_v19, PackAlgebra.linP_pack, ← RefValue.h_eq]

theorem region0_sumsq : (dat0 (F := Ideal) (V1 m ρ) c).arrAt 6 cfg0.N = tileSums (fun j => pack (hh m c) j * pack (hh m c) j) := by
  rw [Region0.final0_6, entry_v24, entry_v25, entry_v17, entry_v19, PackAlgebra.linP_pack, ← RefValue.h_eq]

theorem w2_v26_0 : W2 m ρ c (Proc.devRef .tc main_v26_0) = pack (hh m c) :=
  (W2_arr m ρ c 4).trans (region0_main m ρ c)
theorem w2_v26_1 : W2 m ρ c (Proc.devRef .tc main_v26_1) = tileSums (pack (hh m c)) :=
  (W2_arr m ρ c 5).trans (region0_sums m ρ c)
theorem w2_v26_2 : W2 m ρ c (Proc.devRef .tc main_v26_2) = tileSums (fun j => pack (hh m c) j * pack (hh m c) j) :=
  (W2_arr m ρ c 6).trans (region0_sumsq m ρ c)

/-! ## What the second region finds -/

theorem entry1_h : V3 m ρ c main_v26_0 = pack (hh m c) := by
  show StableHlo.after (hostOps1 (F := Ideal)) (W2 m ρ c) (Proc.devRef .tc main_v26_0) = _
  rw [HostStretch.mid_v26_0]
  exact w2_v26_0 m ρ c

theorem entry1_mean : V3 m ρ c main_v46 = lanes2 (mean (hh m c)) := by
  show StableHlo.after (hostOps1 (F := Ideal)) (W2 m ρ c) (Proc.devRef .tc main_v46) = _
  rw [HostStretch.mid_v46, w2_v26_1, StatsRead.twice_eq]
  refine congrArg BnSpec.lanes2 (funext fun d => ?_)
  rw [StatsRead.meanRow_apply, StatsRead.foldHalves_apply, PackAlgebra.sum_tileSums, PackAlgebra.sum_tileSums,
    PackAlgebra.sum_pack_halves]
  rfl

theorem entry1_inv : V3 m ρ c main_v47 = lanes2 (fun d => Ideal.rsqrt (varMom (hh m c) d + eps)) := by
  show StableHlo.after (hostOps1 (F := Ideal)) (W2 m ρ c) (Proc.devRef .tc main_v47) = _
  rw [HostStretch.mid_v47, w2_v26_1, w2_v26_2, StatsRead.twice_eq]
  refine congrArg BnSpec.lanes2 (funext fun d => ?_)
  rw [StatsRead.invRow_apply, StatsRead.meanRow_apply, StatsRead.foldHalves_apply, StatsRead.foldHalves_apply,
    PackAlgebra.sum_tileSums, PackAlgebra.sum_tileSums, PackAlgebra.sum_tileSums, PackAlgebra.sum_tileSums,
    PackAlgebra.sum_pack_halves_sq, PackAlgebra.sum_pack_halves]
  rfl

theorem entry1_gamma : V3 m ρ c main_v21 = lanes2 (fun d => a4 m c (ix1 d)) := by
  show StableHlo.after (hostOps1 (F := Ideal)) (W2 m ρ c) (Proc.devRef .tc main_v21) = _
  rw [HostStretch.mid_v21, W2_of_ne m ρ c main_v21 (by decide)]
  show StableHlo.after (hostOps0 (F := Ideal)) (W0 m ρ c) (Proc.devRef .tc main_v21) = _
  rw [HostStretch.pre_v21]
  exact Layout.lanes_concat _ _ _

theorem entry1_beta : V3 m ρ c main_v23 = lanes2 (fun d => a5 m c (ix1 d)) := by
  show StableHlo.after (hostOps1 (F := Ideal)) (W2 m ρ c) (Proc.devRef .tc main_v23) = _
  rw [HostStretch.mid_v23, W2_of_ne m ρ c main_v23 (by decide)]
  show StableHlo.after (hostOps0 (F := Ideal)) (W0 m ρ c) (Proc.devRef .tc main_v23) = _
  rw [HostStretch.pre_v23]
  exact Layout.lanes_concat _ _ _

/-! ## What the second region leaves, and the result -/

theorem region1_out : (dat1 (F := Ideal) (V3 m ρ) c).arrAt 5 cfg1.N
    = pack (normRelu (hh m c) (mean (hh m c)) (varMom (hh m c)) (a4 m c) (a5 m c)) := by
  rw [Region1.final, entry1_h, entry1_mean, entry1_inv, entry1_gamma, entry1_beta, PackAlgebra.normP_pack]
  rfl

theorem w4_v48 : W4 m ρ c (Proc.devRef .tc main_v48)
    = pack (normRelu (hh m c) (mean (hh m c)) (varMom (hh m c)) (a4 m c) (a5 m c)) :=
  (W4_arr m ρ c 5).trans (region1_out m ρ c)

/-- The kernel's result: the normalised, clamped h, with the variance as mean of squares minus squared mean. -/
theorem kernel_result : W5 m ρ c (Proc.devRef .tc main_v49)
    = normRelu (hh m c) (mean (hh m c)) (varMom (hh m c)) (a4 m c) (a5 m c) := by
  show StableHlo.after (hostOps2 (F := Ideal)) (W4 m ρ c) (Proc.devRef .tc main_v49) = _
  rw [HostStretch.post_v49, w4_v48, Layout.shapeCast_unpack, PackAlgebra.unpack_pack]

end Cert.Bridge

end
-- ==== Proof.LibFiniteOps.lean ====
import Idealize.ShloMosaic.PureOps
import Idealize.ShloMosaic.PureOps.Ideal
import proofs.«167349_j88201448390851_2_alg».proof.Proof.LibMoment

/-!
# Operations that keep every entry a real number

A vector of extended reals is `AllReal` when every entry is a real number. At the ideal values
each operation below is a textbook operation on the entries — a sum, a product, a maximum, a
choice between two entries, a re-indexing, a finite sum of entries or of products of entries —
so it keeps that property, by the closure of the real numbers under the operation.
-/

noncomputable section

namespace Cert.LibFiniteOps

open Idealize.ShloMosaic Cert.LibMoment
open scoped BigOperators

/-- Every entry of the vector is a real number. -/
def AllReal {s : Shape} (v : s.Idx → EReal) : Prop := ∀ i, IsReal (v i)

theorem AllReal.apply {s : Shape} {v : s.Idx → EReal} (h : AllReal v) (i : s.Idx) : IsReal (v i) := h i

/-! ### Re-indexings: every entry of the result is an entry of the operand -/

/-- A vector read through any map of indices. -/
theorem allReal_comp {s t : Shape} {x : s.Idx → EReal} (g : t.Idx → s.Idx) (hx : AllReal x) :
    AllReal (fun j => x (g j)) :=
  fun j => hx (g j)

theorem allReal_broadcastInDim {s t : Shape} (dims : Fin s.rank → Fin t.rank)
    (h : s.BroadcastsInDim t dims) {x : s.Idx → EReal} (hx : AllReal x) :
    AllReal (broadcastInDim t dims h x) :=
  fun _ => hx _

theorem allReal_transpose {s t : Shape} (perm : List (Fin s.rank)) {x : s.Idx → EReal}
    (h : s.Transposes perm t) (hx : AllReal x) :
    AllReal (transpose t perm x h) :=
  fun _ => hx _

theorem allReal_shapeCast {s t : Shape} {x : s.Idx → EReal} (h : s.ShapeCasts t) (hx : AllReal x) :
    AllReal (shapeCast t x h) :=
  fun _ => hx _

/-- A gather reads, at each result index, one entry of the operand. -/
theorem allReal_gather {s si t : Shape} {w : Nat} (d : GatherDims s si t) {x : s.Idx → EReal}
    (idx : IVec si w) (hx : AllReal x) :
    AllReal (Host.gather d x idx) :=
  fun _ => hx _

/-! ### Constants -/

/-- The splat of a pattern that denotes a real number. -/
theorem allReal_constant (s : Shape) (φ : FTy) (b : BitVec φ.bits)
    (hb : IsReal (Ideal.ofBits φ b)) :
    AllReal (constant (F := Ideal) s φ b) :=
  fun _ => hb

/-- A rank-zero constant broadcast to any shape. -/
theorem allReal_broadcast_constant {s0 t : Shape} (dims : Fin s0.rank → Fin t.rank)
    (h : s0.BroadcastsInDim t dims) (φ : FTy) (b : BitVec φ.bits)
    (hb : IsReal (Ideal.ofBits φ b)) :
    AllReal (broadcastInDim t dims h (constant (F := Ideal) s0 φ b)) :=
  allReal_broadcastInDim dims h (allReal_constant s0 φ b hb)

/-! ### Entrywise operations -/

theorem allReal_addf {s : Shape} {φ : FTy} {x y : FVec Ideal s φ} (hx : AllReal x) (hy : AllReal y) :
    AllReal (addf x y) :=
  fun i => (hx i).add (hy i)

theorem allReal_subf {s : Shape} {φ : FTy} {x y : FVec Ideal s φ} (hx : AllReal x) (hy : AllReal y) :
    AllReal (subf x y) :=
  fun i => (hx i).sub (hy i)

theorem allReal_mulf {s : Shape} {φ : FTy} {x y : FVec Ideal s φ} (hx : AllReal x) (hy : AllReal y) :
    AllReal (mulf x y) :=
  fun i => (hx i).mul (hy i)

theorem allReal_maximumf {s : Shape} {φ : FTy} {x y : FVec Ideal s φ} (hx : AllReal x)
    (hy : AllReal y) :
    AllReal (maximumf x y) :=
  fun i => (hx i).max (hy i)

/-- A choice, entry by entry, between two vectors of real numbers. -/
theorem allReal_select {s : Shape} (c : IVec s 1) {x y : s.Idx → EReal} (hx : AllReal x)
    (hy : AllReal y) :
    AllReal (select c x y) := by
  intro i
  show IsReal (if c i = 1 then x i else y i)
  split
  · exact hx i
  · exact hy i

/-- The reciprocal square root of positive real numbers. -/
theorem allReal_rsqrt {s : Shape} {φ : FTy} {x : FVec Ideal s φ} (hx : AllReal x)
    (hpos : ∀ i, (0 : EReal) < x i) :
    AllReal (Host.rsqrt x) :=
  fun i => (hx i).rsqrt (hpos i)

/-- Division by real numbers none of which is zero. -/
theorem allReal_divf {s : Shape} {φ : FTy} {x y : FVec Ideal s φ} (hx : AllReal x)
    (hy : AllReal y) (hne : ∀ i, y i ≠ 0) :
    AllReal (Host.divf x y) := by
  intro i
  obtain ⟨n, hn⟩ := hy i
  have hn0 : n ≠ 0 := by
    intro h
    apply hne i
    rw [hn, h]
    exact EReal.coe_zero
  show IsReal (Ideal.div (x i) (y i))
  rw [hn]
  exact (hx i).div_coe hn0

/-! ### Finite sums -/

/-- Scatter with addition: each entry of the operand plus the finite sum of the updates that
    land on it. -/
theorem allReal_scatterAdd {s si u : Shape} {w : Nat} {φ : FTy} (d : ScatterDims s si u)
    {x : FVec Ideal s φ} (idx : IVec si w) {upd : FVec Ideal u φ}
    (hx : AllReal x) (hu : AllReal upd) :
    AllReal (Host.scatterAdd d x idx upd) :=
  fun i => (hx i).add (IsReal.sum _ _ (fun j _ => hu j))

/-- A reduction by addition: the initial value plus the finite sum of the entries that reduce to
    each index. -/
theorem allReal_reduceAdd {s t u : Shape} {φ : FTy} {axes : List (Fin s.rank)}
    {x : FVec Ideal s φ} {init : u.Idx → Ideal φ} (h : s.ReducesTo axes t) (hu : 0 < u.numel)
    (hx : AllReal x) (hi : AllReal init) :
    AllReal (Host.reduceAdd x init h hu) :=
  fun _ => (hi _).add (IsReal.sum _ _ (fun i _ => hx i))

/-- A contraction: at each index, zero plus the finite sum of products of entries. -/
theorem allReal_dotGeneral {sl sr so : Shape} {φ₁ φ₂ : FTy} (d : DotDims sl sr so)
    (prec : Option ContractPrecision) {x : FVec Ideal sl φ₁} {y : FVec Ideal sr φ₂}
    (hx : AllReal x) (hy : AllReal y) :
    AllReal (Host.dotGeneral d prec x y) :=
  fun _ => isReal_zero.add (IsReal.sum_univ _ (fun _ => (hx _).mul (hy _)))

end Cert.LibFiniteOps

end
-- ==== Proof.LibFiniteMax.lean ====
/-
  Finite entries, clips and maxima on the extended reals. Library imports only.

  * The words of `+inf` and `-inf` denote `⊤` and `⊥`.
  * An extended real that the comparison `|x| < +inf` accepts — `max x (-x)` compared with the word of `+inf`, the
    element test of a "every input is finite" precondition — is a real number.
  * A value clipped into a real interval, `min hi (max lo r)`, is a real number whatever `r` is.
  * The maximum, taken from `⊥`, of a nonempty finite family of real numbers is a real number (a row's or an
    array's largest absolute value, as a quantizer's scale takes it).
  * The absolute value `max x (-x)` of a real number is a real number.
  "Is a real number" is stated as `∃ a : ℝ, x = ↑a`.
-/
import Idealize.ShloMosaic.PureOps.Ideal
import Mathlib.Data.EReal.Basic
import Mathlib.Data.EReal.Operations
import Mathlib.Data.Finset.Fold
import Mathlib.Tactic

noncomputable section

namespace Cert.LibFiniteMax

open Idealize.ShloMosaic

/-- The word of `+inf` denotes `⊤`. -/
theorem ofBits_pos_inf : Ideal.ofBits .f32 0x7F800000#32 = ⊤ := by
  simp [Ideal.ofBits, Ideal.ieee]

/-- The word of `-inf` denotes `⊥`. -/
theorem ofBits_neg_inf : Ideal.ofBits .f32 0xFF800000#32 = ⊥ := by
  simp [Ideal.ofBits, Ideal.ieee]

/-- A value that is neither infinity is a real number. -/
theorem real_of_ne {x : EReal} (h1 : x ≠ ⊤) (h2 : x ≠ ⊥) : ∃ a : ℝ, x = (a : EReal) :=
  ⟨x.toReal, (EReal.coe_toReal h1 h2).symm⟩

/-- A value whose absolute value `max x (-x)` is below `⊤` is a real number. -/
theorem real_of_abs_lt_top {x : EReal} (h : max x (-x) < ⊤) : ∃ a : ℝ, x = (a : EReal) := by
  have h1 : x < ⊤ := lt_of_le_of_lt (le_max_left _ _) h
  have h2 : -x < ⊤ := lt_of_le_of_lt (le_max_right _ _) h
  refine real_of_ne (ne_of_lt h1) ?_
  rintro rfl
  simp at h2

/-- An entry that the comparison `|x| < +inf` accepts is a real number. -/
theorem real_of_lt_inf {x : EReal}
    (h : Ideal.cmp .olt (max x (-x)) (Ideal.ofBits .f32 0x7F800000#32) = 1#1) : ∃ a : ℝ, x = (a : EReal) := by
  rw [ofBits_pos_inf] at h
  apply real_of_abs_lt_top
  by_contra hc
  have : Ideal.cmp .olt (max x (-x)) ⊤ = 0#1 := by
    unfold Ideal.cmp
    simp only [decide_eq_false hc]
    rfl
  rw [this] at h
  exact absurd h (by decide)

/-- A value clipped into the real interval [lo, hi] is a real number. -/
theorem clip_real (lo hi : ℝ) (hle : lo ≤ hi) (r : EReal) :
    ∃ a : ℝ, min (hi : EReal) (max (lo : EReal) r) = (a : EReal) := by
  apply real_of_ne
  · exact ne_of_lt (lt_of_le_of_lt (min_le_left _ _) (EReal.coe_lt_top _))
  · exact ne_of_gt (lt_of_lt_of_le (EReal.bot_lt_coe _)
      (le_min (EReal.coe_le_coe_iff.2 hle) (le_max_left _ _)))

/-- The maximum, from `⊥`, of a nonempty finite family of real numbers is a real number. -/
theorem fold_max_real {ι : Type*} (S : Finset ι) (f : ι → EReal) (hne : S.Nonempty)
    (hf : ∀ i ∈ S, ∃ a : ℝ, f i = (a : EReal)) : ∃ a : ℝ, S.fold max ⊥ f = (a : EReal) := by
  apply real_of_ne
  · apply ne_of_lt
    rw [Finset.fold_max_lt]
    refine ⟨bot_lt_top, fun i hi => ?_⟩
    obtain ⟨a, ha⟩ := hf i hi
    rw [ha]; exact EReal.coe_lt_top a
  · apply ne_of_gt
    rw [Finset.lt_fold_max]
    obtain ⟨i, hi⟩ := hne
    obtain ⟨a, ha⟩ := hf i hi
    exact Or.inr ⟨i, hi, by rw [ha]; exact EReal.bot_lt_coe a⟩

/-- The absolute value of a real number is a real number. -/
theorem abs_real {x : EReal} (hx : ∃ a : ℝ, x = (a : EReal)) : ∃ a : ℝ, max x (-x) = (a : EReal) := by
  obtain ⟨a, rfl⟩ := hx
  rcases le_total (a : EReal) (-(a : EReal)) with h | h
  · rw [max_eq_right h]; exact ⟨-a, (EReal.coe_neg a).symm⟩
  · rw [max_eq_left h]; exact ⟨a, rfl⟩

end Cert.LibFiniteMax

end
-- ==== Proof.Finite.lean ====
/-
  Every entry of the inputs and of the layer's pre-normalisation array is a real number.

  The precondition tests, for each of the six float inputs, that every entry x satisfies |x| < +inf, and takes
  the conjunction of the six tests. An extended real whose absolute value max x (-x) lies below the top element
  is neither infinity, so it is a real number.

  The pre-normalisation array h = (S · Aᵀ + b) + x, with S the edge-weighted sum of gathered rows of x, is built
  from the inputs by re-indexings, entrywise sums and products, and finite sums of products. The real numbers are
  closed under all of these, whatever rows the integer index arrays select: a gather reads entries of x, and a
  scatter with addition adds finitely many real updates to the real number zero.
-/
import proofs.«167349_j88201448390851_2_alg».proof.Defs
import proofs.«167349_j88201448390851_2_alg».proof.Proof.Gen.ReferenceIdeal.Read
import proofs.«167349_j88201448390851_2_alg».proof.Proof.Gen.Pre_finite_inputs
import proofs.«167349_j88201448390851_2_alg».proof.Proof.Spec
import proofs.«167349_j88201448390851_2_alg».proof.Proof.LibMoment
import proofs.«167349_j88201448390851_2_alg».proof.Proof.LibFiniteOps
import proofs.«167349_j88201448390851_2_alg».proof.Proof.LibFiniteMax
import Idealize.ShloMosaic.Lib.ReduceAll

noncomputable section

namespace Cert.Finite

open Idealize.ShloMosaic Cert.LibMoment Cert.LibFiniteOps

/-! ## The inputs -/

/-- The rank-zero shape has one index. -/
instance : Subsingleton Cert.Pre_finite_inputs.S_.Idx := ⟨fun a b => funext fun d => d.elim0⟩

/-- An entry that passes the test |x| < +inf, in the form the precondition states it, is a real number. -/
theorem real_of_test {s : Shape} (x : FVec Ideal s .f32)
    (dims : Fin Cert.Pre_finite_inputs.S_.rank → Fin s.rank) (hb : Cert.Pre_finite_inputs.S_.BroadcastsInDim s dims) (i : s.Idx)
    (e : cmpf .olt (Host.absf x) (broadcastInDim s dims hb (constant (F := Ideal) Cert.Pre_finite_inputs.S_ .f32 0x7F800000#32)) i = 1#1) :
    IsReal (x i) :=
  Cert.LibFiniteMax.real_of_lt_inf e

theorem inputs_real [Cert.Pre_finite_inputs.Facts]
    (x0 : FVec Ideal Cert.Pre_finite_inputs.S100000x64 .f32) (x1 : FVec Ideal Cert.Pre_finite_inputs.S1600000 .f32)
    (x2 : FVec Ideal Cert.Pre_finite_inputs.S64x64 .f32) (x3 x4 x5 : FVec Ideal Cert.Pre_finite_inputs.S64 .f32)
    (x6 x7 : IVec Cert.Pre_finite_inputs.S1600000 32)
    (h : Cert.Pre_finite_inputs.fn (F := Ideal) x0 x1 x2 x3 x4 x5 x6 x7 = (fun _ => 1#1)) :
    (∀ i, IsReal (x0 i)) ∧ (∀ i, IsReal (x1 i)) ∧ (∀ i, IsReal (x2 i)) ∧ (∀ i, IsReal (x3 i)) ∧
      (∀ i, IsReal (x4 i)) ∧ (∀ i, IsReal (x5 i)) := by
  have e := congrFun h ValueIdx.ix0
  dsimp only [Cert.Pre_finite_inputs.fn, Cert.Pre_finite_inputs.fn_part1] at e
  simp only [andi, IntOp.andi_eq_one] at e
  obtain ⟨⟨⟨⟨⟨e0, e1⟩, e2⟩, e3⟩, e4⟩, e5⟩ := e
  refine ⟨fun i => ?_, fun i => ?_, fun i => ?_, fun i => ?_, fun i => ?_, fun i => ?_⟩
  · exact real_of_test x0 _ _ i (Host.reduce_andi_all _ _ _ _ _ e0 i)
  · exact real_of_test x1 _ _ i (Host.reduce_andi_all _ _ _ _ _ e1 i)
  · exact real_of_test x2 _ _ i (Host.reduce_andi_all _ _ _ _ _ e2 i)
  · exact real_of_test x3 _ _ i (Host.reduce_andi_all _ _ _ _ _ e3 i)
  · exact real_of_test x4 _ _ i (Host.reduce_andi_all _ _ _ _ _ e4 i)
  · exact real_of_test x5 _ _ i (Host.reduce_andi_all _ _ _ _ _ e5 i)

/-! ## The layer's pre-normalisation array -/

theorem h_real [Cert.ReferenceIdeal.Facts]
    (x0 : (⟨Cert.ReferenceIdeal.S100000x64, .f32⟩ : BufTy).Contents (Elt Ideal))
    (x1 : (⟨Cert.ReferenceIdeal.S1600000, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x6 x7 : (⟨Cert.ReferenceIdeal.S1600000, .i32⟩ : BufTy).Contents (Elt Ideal))
    (h0 : ∀ i, IsReal (x0 i)) (h1 : ∀ i, IsReal (x1 i)) (h2 : ∀ i, IsReal (x2 i)) (h3 : ∀ i, IsReal (x3 i)) :
    ∀ i, IsReal (Cert.ReferenceIdeal.Read.val_main_v18 (F := Ideal) x0 x1 x2 x3 x6 x7 i) := by
  -- the edge weights, one per edge, repeated along the 64 features
  have hv0 : AllReal (s := Cert.ReferenceIdeal.S1600000x1) (Cert.ReferenceIdeal.Read.val_main_v0 (F := Ideal) x1) :=
    allReal_broadcastInDim _ _ h1
  have hv8 : AllReal (s := Cert.ReferenceIdeal.S1600000x64) (Cert.ReferenceIdeal.Read.val_main_v8 (F := Ideal) x1) :=
    allReal_broadcastInDim _ _ hv0
  -- the gathered source rows: entries of x0, whichever rows the indices name
  have hv7 : AllReal (s := Cert.ReferenceIdeal.S1600000x64) (Cert.ReferenceIdeal.Read.val_main_v7 (F := Ideal) x0 x7) :=
    allReal_gather _ _ h0
  -- the weighted messages
  have hv9 : AllReal (s := Cert.ReferenceIdeal.S1600000x64) (Cert.ReferenceIdeal.Read.val_main_v9 (F := Ideal) x0 x1 x7) :=
    allReal_mulf hv8 hv7
  -- the zero array the messages are added into
  have hv10 : AllReal (s := Cert.ReferenceIdeal.S100000x64) (Cert.ReferenceIdeal.Read.val_main_v10 (F := Ideal)) :=
    allReal_broadcast_constant _ _ _ _ (by rw [Ideal.ofBits_zero_f32]; exact isReal_zero)
  -- the segment sums: zero plus finitely many messages
  have hv12 : AllReal (s := Cert.ReferenceIdeal.S100000x64) (Cert.ReferenceIdeal.Read.val_main_v12 (F := Ideal) x0 x1 x6 x7) :=
    allReal_scatterAdd _ _ hv10 hv9
  -- the transposed weights
  have hv13 : AllReal (s := Cert.ReferenceIdeal.S64x64) (Cert.ReferenceIdeal.Read.val_main_v13 (F := Ideal) x2) :=
    allReal_transpose _ _ h2
  -- the linear layer: sums of 64 products
  have hv14 : AllReal (s := Cert.ReferenceIdeal.S100000x64) (Cert.ReferenceIdeal.Read.val_main_v14 (F := Ideal) x0 x1 x2 x6 x7) :=
    allReal_dotGeneral _ _ hv12 hv13
  -- the bias, repeated along the rows
  have hv15 : AllReal (s := Cert.ReferenceIdeal.S1x64) (Cert.ReferenceIdeal.Read.val_main_v15 (F := Ideal) x3) :=
    allReal_broadcastInDim _ _ h3
  have hv16 : AllReal (s := Cert.ReferenceIdeal.S100000x64) (Cert.ReferenceIdeal.Read.val_main_v16 (F := Ideal) x3) :=
    allReal_broadcastInDim _ _ hv15
  have hv17 : AllReal (s := Cert.ReferenceIdeal.S100000x64) (Cert.ReferenceIdeal.Read.val_main_v17 (F := Ideal) x0 x1 x2 x3 x6 x7) :=
    allReal_addf hv14 hv16
  -- the residual
  exact allReal_addf hv17 h0

end Cert.Finite

end
-- ==== Proof.lean ====
/-
  A graph layer: h = (spmm(x) * W^T + b) + x on 100000 node rows of 64 features, batch-normalised over the rows
  (mean and variance per feature, reciprocal square root of variance + eps, scale, shift) and clamped below at 0.

  The reference does this on node rows with the variance as the mean of the squared deviations from the mean. The
  kernel packs two node rows into one 128-lane row, multiplies by diag(W^T, W^T), takes per-tile partial sums of h and
  of h*h inside its first pipelined region, folds them on the host into the mean and into
  (mean of squares) - mean * mean, and normalises lane by lane in its second region.

  At the ideal instance the two agree: packing is a re-indexing, the block-diagonal product is the 64-term product
  (the other 64 terms are x * 0), partial sums regroup into the column sums (addition of extended reals is commutative
  and associative, no finiteness asked), and the two forms of the variance agree because every entry of h is a real
  number: the inputs are finite by the precondition, the gather reads entries of x whatever the indices are, and the
  scatter-add adds finitely many real products. The frames of the two kernels are the generated ones; the reference's
  frame is its generated run with the result dropped; no operation was rewritten by the ideal pass.
-/
import proofs.«167349_j88201448390851_2_alg».proof.Defs
import proofs.«167349_j88201448390851_2_alg».proof.Proof.Gen.Kernel
import proofs.«167349_j88201448390851_2_alg».proof.Proof.Gen.Kernel.Skeleton
import proofs.«167349_j88201448390851_2_alg».proof.Proof.Gen.Kernel.Launch
import proofs.«167349_j88201448390851_2_alg».proof.Proof.Gen.Kernel.Points
import proofs.«167349_j88201448390851_2_alg».proof.Proof.Gen.Kernel.Frame
import proofs.«167349_j88201448390851_2_alg».proof.Proof.Gen.KernelIdeal
import proofs.«167349_j88201448390851_2_alg».proof.Proof.Gen.KernelIdeal.Skeleton
import proofs.«167349_j88201448390851_2_alg».proof.Proof.Gen.KernelIdeal.Launch
import proofs.«167349_j88201448390851_2_alg».proof.Proof.Gen.KernelIdeal.Points
import proofs.«167349_j88201448390851_2_alg».proof.Proof.Gen.KernelIdeal.Frame
import proofs.«167349_j88201448390851_2_alg».proof.Proof.Gen.ReferenceIdeal
import proofs.«167349_j88201448390851_2_alg».proof.Proof.Gen.ReferenceIdeal.Run
import proofs.«167349_j88201448390851_2_alg».proof.Proof.Gen.ReferenceIdeal.Read
import proofs.«167349_j88201448390851_2_alg».proof.Proof.Gen.Pre_finite_inputs
import proofs.«167349_j88201448390851_2_alg».proof.Proof.RunValue
import proofs.«167349_j88201448390851_2_alg».proof.Proof.Bridge
import proofs.«167349_j88201448390851_2_alg».proof.Proof.Finite
import proofs.«167349_j88201448390851_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the normalised, clamped h of the shared arguments, the variance read as the mean of the
    squared deviations: the reference by its stages, the kernel through its two regions and the moment law on the
    real entries of h. -/
theorem algebraic : Cert.algebraic_KernelIdeal_ReferenceIdeal := by
  intro m ρ m' ρ' hpre hagree
  refine ⟨fun c => Cert.BnSpec.normRelu (Cert.Bridge.hh m c) (Cert.BnSpec.mean (Cert.Bridge.hh m c))
    (Cert.BnSpec.varDev (Cert.Bridge.hh m c)) (Cert.Bridge.a4 m c) (Cert.Bridge.a5 m c), ?_, ?_⟩
  · refine (θ_run Cert.KernelIdeal.defs _ _).mono (fun r h c => ?_) (Cert.KernelIdeal.RunValue.run_result (F := Ideal) m ρ)
    obtain ⟨hv, hargs⟩ := h c
    refine ⟨?_, hargs⟩
    obtain ⟨r0, r1, r2, r3, -, -⟩ := Cert.Finite.inputs_real _ _ _ _ _ _ _ _ (hpre c)
    have hreal := Cert.Finite.h_real (Cert.Bridge.a0 m c) (Cert.Bridge.a1 m c) (Cert.Bridge.a2 m c) (Cert.Bridge.a3 m c)
      (Cert.Bridge.a6 m c) (Cert.Bridge.a7 m c) r0 r1 r2 r3
    have hvar : Cert.BnSpec.varMom (Cert.Bridge.hh m c) = Cert.BnSpec.varDev (Cert.Bridge.hh m c) :=
      funext fun d => (Cert.RefValue.varDev_eq_varMom _ hreal d).symm
    rw [hv, Cert.Bridge.kernel_result, hvar]
  · refine (θ_run Cert.ReferenceIdeal.defs _ _).mono (fun r h c => ⟨?_, (h c).2⟩)
      (Cert.ReferenceIdeal.Value.run (F := Ideal) m' ρ')
    rw [(h c).1, Cert.ReferenceIdeal.Read.val_main_v44_eq, Cert.RefValue.ref_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
